-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S16x1024 : Shape := ⟨2, ![16, 1024]⟩
abbrev S1x1024 : Shape := ⟨2, ![1, 1024]⟩
abbrev S1024x16 : Shape := ⟨2, ![1024, 16]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x16 : S_.BroadcastsInDim S1024x16 (![] : Fin 0 → Fin S1024x16.rank)
  reducesTo_S1024x16_S_d0_1 : S1024x16.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x16 .f32) (main_arg5 : FVec F S1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2x2048x1024 .f32) (main_arg1 : FVec F S16x1024 .f32) (main_arg2 : FVec F S16x1024 .f32) (main_arg3 : FVec F S1x1024 .f32) (main_arg4 : FVec F S1024x16 .f32) (main_arg5 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Kernel.lean ====
abbrev S2x2048x1024 : Shape := ⟨3, ![2, 2048, 1024]⟩
abbrev S16x1024 : Shape := ⟨2, ![16, 1024]⟩
abbrev S1x1024 : Shape := ⟨2, ![1, 1024]⟩
abbrev S1024x16 : Shape := ⟨2, ![1024, 16]⟩
abbrev S1024 : Shape := ⟨1, ![1024]⟩
abbrev S2x2048x2049x16 : Shape := ⟨4, ![2, 2048, 2049, 16]⟩
abbrev S1x16x1024 : Shape := ⟨3, ![1, 16, 1024]⟩
abbrev S1x16x2049x16 : Shape := ⟨4, ![1, 16, 2049, 16]⟩
abbrev S16x16 : Shape := ⟨2, ![16, 16]⟩
abbrev S16 : Shape := ⟨1, ![16]⟩
abbrev S16x1 : Shape := ⟨2, ![16, 1]⟩
abbrev S16x1x16 : Shape := ⟨3, ![16, 1, 16]⟩
abbrev S1x16x128 : Shape := ⟨3, ![1, 16, 128]⟩
abbrev S16x128 : Shape := ⟨2, ![16, 128]⟩
abbrev S1x128 : Shape := ⟨2, ![1, 128]⟩
abbrev S128x16 : Shape := ⟨2, ![128, 16]⟩
abbrev S16x128x1 : Shape := ⟨3, ![16, 128, 1]⟩
abbrev S1x128x16 : Shape := ⟨3, ![1, 128, 16]⟩
abbrev S16x128x16 : Shape := ⟨3, ![16, 128, 16]⟩
abbrev S1x16x128x16 : Shape := ⟨4, ![1, 16, 128, 16]⟩
abbrev S1x16x1x16 : Shape := ⟨4, ![1, 16, 1, 16]⟩

abbrev nBuf : Space → Nat
  | .hbm => 8
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S16x1024, .f32⟩
  | .hbm, ⟨2, _⟩ => ⟨S16x1024, .f32⟩
  | .hbm, ⟨3, _⟩ => ⟨S1x1024, .f32⟩
  | .hbm, ⟨4, _⟩ => ⟨S1024x16, .f32⟩
  | .hbm, ⟨5, _⟩ => ⟨S1024, .f32⟩
  | .hbm, ⟨6, _⟩ => ⟨S1x1024, .f32⟩
  | .hbm, ⟨7, _⟩ => ⟨S2x2048x2049x16, .f32⟩
  | .local _ .vmem, ⟨0, _⟩ => ⟨S1x16x1024, .f32⟩
  | .local _ .vmem, ⟨1, _⟩ => ⟨S1x16x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x16, .f32⟩
  | .local _ .vmem, ⟨6, _⟩ => ⟨S1x1024, .f32⟩
  | .local _ .vmem, ⟨7, _⟩ => ⟨S1x16x2049x16, .f32⟩
  | .local _ .vmem, ⟨8, _⟩ => ⟨S1x16x2049x16, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x2049x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S1024_S1x1024 : S1024.ShapeCasts S1x1024
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  transposes_S16x1024_p1_0_S1024x16 : S16x1024.Transposes [1, 0] S1024x16
  inb_S1x1024_S1x1024_0_0 : ∀ a, (![0, 0] : Fin 2 → Nat) a + S1x1024.size a ≤ S1x1024.size a
  h_S1x1024 : 0 < S1x1024.numel
  broadcasts_S1x1024_S16x1024 : S1x1024.Broadcasts S16x1024
  reduces_S16x1024_S16 : S16x1024.Reduces [1] S16
  shapeCasts_S16_S16x1 : S16.ShapeCasts S16x1
  shapeCasts_S16x16_S16x1x16 : S16x16.ShapeCasts S16x1x16
  inb_S1x16x1024_S1x16x128_0_0_0 : ∀ a, (![0, 0, 0] : Fin 3 → Nat) a + S1x16x128.size a ≤ S1x16x1024.size a
  h_S1x16x128 : 0 < S1x16x128.numel
  shapeCasts_S1x16x128_S16x128 : S1x16x128.ShapeCasts S16x128
  inb_S1x1024_S1x128_0_0 : ∀ a, (![0, 0] : Fin 2 → Nat) a + S1x128.size a ≤ S1x1024.size a
  h_S1x128 : 0 < S1x128.numel
  shapeCasts_S1x128_S1x128 : S1x128.ShapeCasts S1x128
  broadcasts_S16x1_S16x128 : S16x1.Broadcasts S16x128
  broadcasts_S1x128_S16x128 : S1x128.Broadcasts S16x128
  inb_S1024x16_S128x16_0_0 : ∀ a, (![0, 0] : Fin 2 → Nat) a + S128x16.size a ≤ S1024x16.size a
  h_S128x16 : 0 < S128x16.numel
  shapeCasts_S16x128_S16x128x1 : S16x128.ShapeCasts S16x128x1
  shapeCasts_S128x16_S1x128x16 : S128x16.ShapeCasts S1x128x16
  broadcasts_S16x128x1_S16x128x16 : S16x128x1.Broadcasts S16x128x16
  broadcasts_S1x128x16_S16x128x16 : S1x128x16.Broadcasts S16x128x16
  broadcasts_S16x1x16_S16x128x16 : S16x1x16.Broadcasts S16x128x16
  inb_S1x16x2049x16_S1x16x128x16_0_0_0_0 : ∀ a, (![0, 0, 0, 0] : Fin 4 → Nat) a + S1x16x128x16.size a ≤ S1x16x2049x16.size a
  h_S1x16x128x16 : 0 < S1x16x128x16.numel
  shapeCasts_S1x16x128x16_S16x128x16 : S1x16x128x16.ShapeCasts S16x128x16
  shapeCasts_S16x128x16_S1x16x128x16 : S16x128x16.ShapeCasts S1x16x128x16
  inb_S1x16x2049x16_S1x16x128x16_0_0_1024_0 : ∀ a, (![0, 0, 1024, 0] : Fin 4 → Nat) a + S1x16x128x16.size a ≤ S1x16x2049x16.size a
  inb_S1x16x1024_S1x16x128_0_0_128 : ∀ a, (![0, 0, 128] : Fin 3 → Nat) a + S1x16x128.size a ≤ S1x16x1024.size a
  inb_S1x1024_S1x128_0_128 : ∀ a, (![0, 128] : Fin 2 → Nat) a + S1x128.size a ≤ S1x1024.size a
  inb_S1024x16_S128x16_128_0 : ∀ a, (![128, 0] : Fin 2 → Nat) a + S128x16.size a ≤ S1024x16.size a
  inb_S1x16x2049x16_S1x16x128x16_0_0_128_0 : ∀ a, (![0, 0, 128, 0] : Fin 4 → Nat) a + S1x16x128x16.size a ≤ S1x16x2049x16.size a
  inb_S1x16x2049x16_S1x16x128x16_0_0_1152_0 : ∀ a, (![0, 0, 1152, 0] : Fin 4 → Nat) a + S1x16x128x16.size a ≤ S1x16x2049x16.size a
  inb_S1x16x1024_S1x16x128_0_0_256 : ∀ a, (![0, 0, 256] : Fin 3 → Nat) a + S1x16x128.size a ≤ S1x16x1024.size a
  inb_S1x1024_S1x128_0_256 : ∀ a, (![0, 256] : Fin 2 → Nat) a + S1x128.size a ≤ S1x1024.size a
  inb_S1024x16_S128x16_256_0 : ∀ a, (![256, 0] : Fin 2 → Nat) a + S128x16.size a ≤ S1024x16.size a
  inb_S1x16x2049x16_S1x16x128x16_0_0_256_0 : ∀ a, (![0, 0, 256, 0] : Fin 4 → Nat) a + S1x16x128x16.size a ≤ S1x16x2049x16.size a
  inb_S1x16x2049x16_S1x16x128x16_0_0_1280_0 : ∀ a, (![0, 0, 1280, 0] : Fin 4 → Nat) a + S1x16x128x16.size a ≤ S1x16x2049x16.size a
  inb_S1x16x1024_S1x16x128_0_0_384 : ∀ a, (![0, 0, 384] : Fin 3 → Nat) a + S1x16x128.size a ≤ S1x16x1024.size a
  inb_S1x1024_S1x128_0_384 : ∀ a, (![0, 384] : Fin 2 → Nat) a + S1x128.size a ≤ S1x1024.size a
  inb_S1024x16_S128x16_384_0 : ∀ a, (![384, 0] : Fin 2 → Nat) a + S128x16.size a ≤ S1024x16.size a
  inb_S1x16x2049x16_S1x16x128x16_0_0_384_0 : ∀ a, (![0, 0, 384, 0] : Fin 4 → Nat) a + S1x16x128x16.size a ≤ S1x16x2049x16.size a
  inb_S1x16x2049x16_S1x16x128x16_0_0_1408_0 : ∀ a, (![0, 0, 1408, 0] : Fin 4 → Nat) a + S1x16x128x16.size a ≤ S1x16x2049x16.size a
  inb_S1x16x1024_S1x16x128_0_0_512 : ∀ a, (![0, 0, 512] : Fin 3 → Nat) a + S1x16x128.size a ≤ S1x16x1024.size a
  inb_S1x1024_S1x128_0_512 : ∀ a, (![0, 512] : Fin 2 → Nat) a + S1x128.size a ≤ S1x1024.size a
  inb_S1024x16_S128x16_512_0 : ∀ a, (![512, 0] : Fin 2 → Nat) a + S128x16.size a ≤ S1024x16.size a
  inb_S1x16x2049x16_S1x16x128x16_0_0_512_0 : ∀ a, (![0, 0, 512, 0] : Fin 4 → Nat) a + S1x16x128x16.size a ≤ S1x16x2049x16.size a
  inb_S1x16x2049x16_S1x16x128x16_0_0_1536_0 : ∀ a, (![0, 0, 1536, 0] : Fin 4 → Nat) a + S1x16x128x16.size a ≤ S1x16x2049x16.size a
  inb_S1x16x1024_S1x16x128_0_0_640 : ∀ a, (![0, 0, 640] : Fin 3 → Nat) a + S1x16x128.size a ≤ S1x16x1024.size a
  inb_S1x1024_S1x128_0_640 : ∀ a, (![0, 640] : Fin 2 → Nat) a + S1x128.size a ≤ S1x1024.size a
  inb_S1024x16_S128x16_640_0 : ∀ a, (![640, 0] : Fin 2 → Nat) a + S128x16.size a ≤ S1024x16.size a
  inb_S1x16x2049x16_S1x16x128x16_0_0_640_0 : ∀ a, (![0, 0, 640, 0] : Fin 4 → Nat) a + S1x16x128x16.size a ≤ S1x16x2049x16.size a
  inb_S1x16x2049x16_S1x16x128x16_0_0_1664_0 : ∀ a, (![0, 0, 1664, 0] : Fin 4 → Nat) a + S1x16x128x16.size a ≤ S1x16x2049x16.size a
  inb_S1x16x1024_S1x16x128_0_0_768 : ∀ a, (![0, 0, 768] : Fin 3 → Nat) a + S1x16x128.size a ≤ S1x16x1024.size a
  inb_S1x1024_S1x128_0_768 : ∀ a, (![0, 768] : Fin 2 → Nat) a + S1x128.size a ≤ S1x1024.size a
  inb_S1024x16_S128x16_768_0 : ∀ a, (![768, 0] : Fin 2 → Nat) a + S128x16.size a ≤ S1024x16.size a
  inb_S1x16x2049x16_S1x16x128x16_0_0_768_0 : ∀ a, (![0, 0, 768, 0] : Fin 4 → Nat) a + S1x16x128x16.size a ≤ S1x16x2049x16.size a
  inb_S1x16x2049x16_S1x16x128x16_0_0_1792_0 : ∀ a, (![0, 0, 1792, 0] : Fin 4 → Nat) a + S1x16x128x16.size a ≤ S1x16x2049x16.size a
  inb_S1x16x1024_S1x16x128_0_0_896 : ∀ a, (![0, 0, 896] : Fin 3 → Nat) a + S1x16x128.size a ≤ S1x16x1024.size a
  inb_S1x1024_S1x128_0_896 : ∀ a, (![0, 896] : Fin 2 → Nat) a + S1x128.size a ≤ S1x1024.size a
  inb_S1024x16_S128x16_896_0 : ∀ a, (![896, 0] : Fin 2 → Nat) a + S128x16.size a ≤ S1024x16.size a
  inb_S1x16x2049x16_S1x16x128x16_0_0_896_0 : ∀ a, (![0, 0, 896, 0] : Fin 4 → Nat) a + S1x16x128x16.size a ≤ S1x16x2049x16.size a
  inb_S1x16x2049x16_S1x16x128x16_0_0_1920_0 : ∀ a, (![0, 0, 1920, 0] : Fin 4 → Nat) a + S1x16x128x16.size a ≤ S1x16x2049x16.size a
  inb_S1x16x2049x16_S1x16x1x16_0_0_2048_0 : ∀ a, (![0, 0, 2048, 0] : Fin 4 → Nat) a + S1x16x1x16.size a ≤ S1x16x2049x16.size a
  h_S1x16x1x16 : 0 < S1x16x1x16.numel
  shapeCasts_S1x16x1x16_S16x1x16 : S1x16x1x16.ShapeCasts S16x1x16
  shapeCasts_S16x1x16_S1x16x1x16 : S16x1x16.ShapeCasts S1x16x1x16
  dot_S16x1024_S1024x16_S16x16_1_0_0_1_n_n_wf : DotDims.WF S16x1024 S1024x16 S16x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x1024.size a ≤ S2x2048x1024.size a
  hwx0_0 : ∀ i : grid0.Coords, EltTy.bits .f32 = 32 ∨ (Rect.block (s := S2x2048x1024) S1x16x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x1024.size a
  hwx0_2 : ∀ i : grid0.Coords, EltTy.bits .f32 = 32 ∨ (Rect.block (s := S16x1024) S16x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S1024x16.size a
  hwx0_4 : ∀ i : grid0.Coords, EltTy.bits .f32 = 32 ∨ (Rect.block (s := S1024x16) S1024x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x2049x16.size a ≤ S2x2048x2049x16.size a
  hwx0_6 : ∀ i : grid0.Coords, EltTy.bits .f32 = 32 ∨ (Rect.block (s := S2x2048x2049x16) S1x16x2049x16.size (cc0_transform_6 i) (hinb0_6 i)).WholeWords (EltTy.packing .f32)

variable [Facts₀]

def dot_S16x1024_S1024x16_S16x16_1_0_0_1_n_n : DotDims S16x1024 S1024x16 S16x16 where
  lhsContracting := [1]
  rhsContracting := [0]
  lhsNonContracting := [0]
  rhsNonContracting := [1]
  lhsBatch := []
  rhsBatch := []
  wf := dot_S16x1024_S1024x16_S16x16_1_0_0_1_n_n_wf

abbrev win0_0 : Pipeline.Window sig grid0 :=
  Pipeline.Window.ofSpec (Memref.whole main_arg0) S1x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x16x2049x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S16x1024 : Shape := ⟨2, ![16, 1024]⟩
abbrev S1x1024 : Shape := ⟨2, ![1, 1024]⟩
abbrev S1024x16 : Shape := ⟨2, ![1024, 16]⟩
abbrev S1024 : Shape := ⟨1, ![1024]⟩
abbrev S2x2048x16 : Shape := ⟨3, ![2, 2048, 16]⟩
abbrev S2x2048x1 : Shape := ⟨3, ![2, 2048, 1]⟩
abbrev S1x1x1024 : Shape := ⟨3, ![1, 1, 1024]⟩
abbrev S_ : Shape := ⟨0, ![]⟩
abbrev S2x2048x1024x1 : Shape := ⟨4, ![2, 2048, 1024, 1]⟩
abbrev S1x1x1024x16 : Shape := ⟨4, ![1, 1, 1024, 16]⟩
abbrev S2x2048x1024x16 : Shape := ⟨4, ![2, 2048, 1024, 16]⟩
abbrev S2x2048x1x16 : Shape := ⟨4, ![2, 2048, 1, 16]⟩
abbrev S2x2048x2049x16 : Shape := ⟨4, ![2, 2048, 2049, 16]⟩

abbrev nBuf : Space → Nat
  | .hbm => 48
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S16x1024, .f32⟩
  | .hbm, ⟨2, _⟩ => ⟨S16x1024, .f32⟩
  | .hbm, ⟨3, _⟩ => ⟨S1x1024, .f32⟩
  | .hbm, ⟨4, _⟩ => ⟨S1024x16, .f32⟩
  | .hbm, ⟨5, _⟩ => ⟨S1024, .f32⟩
  | .hbm, ⟨6, _⟩ => ⟨S2x2048x16, .f32⟩
  | .hbm, ⟨7, _⟩ => ⟨S2x2048x16, .f32⟩
  | .hbm, ⟨8, _⟩ => ⟨S2x2048x1, .f32⟩
  | .hbm, ⟨9, _⟩ => ⟨S1x1x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .i1⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024x1, .f32⟩
  | .hbm, ⟨28, _⟩ => ⟨S1x1x1024x16, .f32⟩
  | .hbm, ⟨29, _⟩ => ⟨S2x2048x1024x16, .f32⟩
  | .hbm, ⟨30, _⟩ => ⟨S2x2048x1024x16, .f32⟩
  | .hbm, ⟨31, _⟩ => ⟨S2x2048x1024x16, .f32⟩
  | .hbm, ⟨32, _⟩ => ⟨S2x2048x1024x16, .f32⟩
  | .hbm, ⟨33, _⟩ => ⟨S_, .f32⟩
  | .hbm, ⟨34, _⟩ => ⟨S2x2048x1024x16, .f32⟩
  | .hbm, ⟨35, _⟩ => ⟨S2x2048x1024x16, .f32⟩
  | .hbm, ⟨36, _⟩ => ⟨S2x2048x1024x16, .f32⟩
  | .hbm, ⟨37, _⟩ => ⟨S2x2048x1024x1, .f32⟩
  | .hbm, ⟨38, _⟩ => ⟨S2x2048x1x16, .f32⟩
  | .hbm, ⟨39, _⟩ => ⟨S2x2048x1024x16, .f32⟩
  | .hbm, ⟨40, _⟩ => ⟨S2x2048x1024x16, .f32⟩
  | .hbm, ⟨41, _⟩ => ⟨S2x2048x1024x16, .f32⟩
  | .hbm, ⟨42, _⟩ => ⟨S2x2048x1024x16, .f32⟩
  | .hbm, ⟨43, _⟩ => ⟨S2x2048x1024x1, .f32⟩
  | .hbm, ⟨44, _⟩ => ⟨S2x2048x1024x16, .f32⟩
  | .hbm, ⟨45, _⟩ => ⟨S2x2048x1024x16, .f32⟩
  | .hbm, ⟨46, _⟩ => ⟨S2x2048x1x16, .f32⟩
  | .hbm, ⟨47, _⟩ => ⟨S2x2048x2049x16, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S2x2048x1_S2x2048x1024_0_1_2 : S2x2048x1.BroadcastsInDim S2x2048x1024 (![0, 1, 2] : Fin 3 → Fin S2x2048x1024.rank)
  bcast_S1x1x1024_S2x2048x1024_0_1_2 : S1x1x1024.BroadcastsInDim S2x2048x1024 (![0, 1, 2] : Fin 3 → Fin S2x2048x1024.rank)
  bcast_S_S2x2048x1024 : S_.BroadcastsInDim S2x2048x1024 (![] : Fin 0 → Fin S2x2048x1024.rank)
  bcast_S2x2048x1024_S2x2048x1024x1_0_1_2 : S2x2048x1024.BroadcastsInDim S2x2048x1024x1 (![0, 1, 2] : Fin 3 → Fin S2x2048x1024x1.rank)
  bcast_S1024x16_S1x1x1024x16_2_3 : S1024x16.BroadcastsInDim S1x1x1024x16 (![2, 3] : Fin 2 → Fin S1x1x1024x16.rank)
  bcast_S2x2048x1024x1_S2x2048x1024x16_0_1_2_3 : S2x2048x1024x1.BroadcastsInDim S2x2048x1024x16 (![0, 1, 2, 3] : Fin 4 → Fin S2x2048x1024x16.rank)
  bcast_S1x1x1024x16_S2x2048x1024x16_0_1_2_3 : S1x1x1024x16.BroadcastsInDim S2x2048x1024x16 (![0, 1, 2, 3] : Fin 4 → Fin S2x2048x1024x16.rank)
  bcast_S_S2x2048x1024x16 : S_.BroadcastsInDim S2x2048x1024x16 (![] : Fin 0 → Fin S2x2048x1024x16.rank)
  bcast_S2x2048x16_S2x2048x1x16_0_1_3 : S2x2048x16.BroadcastsInDim S2x2048x1x16 (![0, 1, 3] : Fin 3 → Fin S2x2048x1x16.rank)
  bcast_S2x2048x1x16_S2x2048x1024x16_0_1_2_3 : S2x2048x1x16.BroadcastsInDim S2x2048x1024x16 (![0, 1, 2, 3] : Fin 4 → Fin S2x2048x1024x16.rank)
  concatenates_S2x2048x1024x16_S2x2048x1024x16_S2x2048x1x16_S2x2048x2049x16_d2 : Shape.Concatenates [S2x2048x1024x16, S2x2048x1024x16, S2x2048x1x16] S2x2048x2049x16 2
  dot_S2x2048x1024_S16x1024_S2x2048x16_2_1_01_0_n_n_wf : DotDims.WF S2x2048x1024 S16x1024 S2x2048x16 [2] [1] [0, 1] [0] [] []
  dot_S2x2048x1024_S1x1024_S2x2048x1_2_1_01_0_n_n_wf : DotDims.WF S2x2048x1024 S1x1024 S2x2048x1 [2] [1] [0, 1] [0] [] []

variable [Facts₀]

def dot_S2x2048x1024_S16x1024_S2x2048x16_2_1_01_0_n_n : DotDims S2x2048x1024 S16x1024 S2x2048x16 where
  lhsContracting := [2]
  rhsContracting := [1]
  lhsNonContracting := [0, 1]
  rhsNonContracting := [0]
  lhsBatch := []
  rhsBatch := []
  wf := dot_S2x2048x1024_S16x1024_S2x2048x16_2_1_01_0_n_n_wf
def dot_S2x2048x1024_S1x1024_S2x2048x1_2_1_01_0_n_n : DotDims S2x2048x1024 S1x1024 S2x2048x1 where
  lhsContracting := [2]
  rhsContracting := [1]
  lhsNonContracting := [0, 1]
  rhsNonContracting := [0]
  lhsBatch := []
  rhsBatch := []
  wf := dot_S2x2048x1024_S1x1024_S2x2048x1_2_1_01_0_n_n_wf

class Facts : Prop extends Facts₀ where

variable [Facts]
-- ==== Proof.OutputBands.lean ====
/-
  The sixteen 128-row bands and the one-row band at row 2048 of a block of shape [1, 16, 2049, 16], as
  rectangles, and the fact that they cover the block: every row index below 2049 lies in one of them.
-/
import Idealize.ShloMosaic.Shape

namespace Cert.Bridge

open Idealize.ShloMosaic

/-- The block's shape. -/
abbrev ShBlk : Shape := ⟨4, ![1, 16, 2049, 16]⟩

/-- Rows `o … o + sz - 1` of the block, all of the other three axes: in bounds when `o + sz ≤ 2049`. -/
theorem band_inb (o sz : Nat) (h : o + sz ≤ 2049) :
    ∀ a : Fin ShBlk.rank, (![0, 0, o, 0] : Fin 4 → Nat) a + (![1, 16, sz, 16] : Fin 4 → Nat) a ≤ ShBlk.size a := by
  intro a
  fin_cases a
  · show 0 + 1 ≤ 1; omega
  · show 0 + 16 ≤ 16; omega
  · show o + sz ≤ 2049; exact h
  · show 0 + 16 ≤ 16; omega

/-- The band of `sz` rows from row `o`: the rectangle `[0, 1) × [0, 16) × [o, o + sz) × [0, 16)`. -/
def band (o sz : Nat) (h : o + sz ≤ 2049) : Rect ShBlk :=
  Rect.unit ![0, 0, o, 0] ![1, 16, sz, 16] (band_inb o sz h)

/-- The seventeen bands, in the order the stores leave them (the last store first): the single row 2048, then
    the 128-row bands of the upper half (from row 1024) and of the lower half (from row 0) in alternation,
    from the top down. -/
def bands17 : List (Rect ShBlk) :=
  [band 2048 1 (by omega), band 1920 128 (by omega), band 896 128 (by omega), band 1792 128 (by omega),
   band 768 128 (by omega), band 1664 128 (by omega), band 640 128 (by omega), band 1536 128 (by omega),
   band 512 128 (by omega), band 1408 128 (by omega), band 384 128 (by omega), band 1280 128 (by omega),
   band 256 128 (by omega), band 1152 128 (by omega), band 128 128 (by omega), band 1024 128 (by omega),
   band 0 128 (by omega)]

/-- An index lies in a band exactly when its row does: the other three coordinates range over their whole
    axes. -/
theorem mem_band {o sz : Nat} {h : o + sz ≤ 2049} {y : ShBlk.Idx} :
    y ∈ (band o sz h).set ↔ o ≤ (y 2).val ∧ (y 2).val < o + sz := by
  unfold band
  rw [Rect.mem_set_unit]
  constructor
  · intro hy
    exact hy 2
  · intro hy a
    fin_cases a
    · have := (y 0).isLt
      show 0 ≤ (y 0).val ∧ (y 0).val < 0 + 1
      change (y 0).val < 1 at this
      omega
    · have := (y 1).isLt
      show 0 ≤ (y 1).val ∧ (y 1).val < 0 + 16
      change (y 1).val < 16 at this
      omega
    · exact hy
    · have := (y 3).isLt
      show 0 ≤ (y 3).val ∧ (y 3).val < 0 + 16
      change (y 3).val < 16 at this
      omega

/-- The seventeen bands cover the block: the rows 0 … 2047 fall into the sixteen bands of 128 rows, row 2048
    into the last. -/
theorem cover17 (y : ShBlk.Idx) : ∃ r ∈ bands17, y ∈ r.set := by
  have hlt : (y 2).val < 2049 := (y 2).isLt
  simp only [bands17, List.mem_cons, List.not_mem_nil, or_false, exists_eq_or_imp, exists_eq_left, mem_band]
  omega

end Cert.Bridge
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.LibRank3Rows.lean ====
/-
  Rank-3 arrays read at an entry: the casts that add a unit axis in the middle or at the end, the broadcasts of an
  array with unit axes to the full [a, b, c], and the maximum and the sum over the last axis at the ideal values.

  A cast keeps the row-major position, so [a, c] → [a, 1, c] at (i, 0, k) reads (i, k), and [a, b] → [a, b, 1] at
  (i, j, 0) reads (i, j). A broadcast reads the operand at the same coordinates, 0 on the operand's unit axes. The
  reduced index (i, j) with the last coordinate k put back is (i, j, k), so the maximum over the last axis at (i, j) is
  the fold of max from the accumulator's value over k of the entry (i, j, k), and the sum is the sum over k.
-/
import Idealize.ShloMosaic.Lib.ValueIdx
import Idealize.ShloMosaic.Lib.Pipeline.Value
import Idealize.ShloMosaic.PureOps.Ideal.Laws

noncomputable section

namespace Cert.Rank3Rows

open Idealize.ShloMosaic Idealize.ShloMosaic.ValueIdx

variable {α : Type}

/-! ## Casts -/

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-! ## Broadcasts to `[a, b, c]` -/

/-- `[a, 1, c]` broadcast to `[a, b, c]`: at `(i, j, k)` the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- `[1, b, c]` broadcast to `[a, b, c]`: at `(i, j, k)` the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- `[1, 1, c]` broadcast to `[a, b, c]`: at `(i, j, k)` the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- `[a, b, 1]` broadcast to `[a, b, c]`: at `(i, j, k)` the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## The last axis reduced -/

/-- The reduced index `(i, j)` with the last coordinate `k` put back is `(i, j, k)`. -/
theorem lift_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- The maximum over the last axis at `(i, j)`: the fold of `max` from the accumulator's value over the row's entries. -/
theorem multiReduction_max_last {a b c : ℕ} (src : FVec Ideal ⟨3, ![a, b, c]⟩ .f32) (acc : BitVec 32)
    (h : (⟨3, ![a, b, c]⟩ : Shape).Reduces [2] (⟨2, ![a, b]⟩ : Shape)) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) :=
  (Ideal.multiReduction_maximumf_single src acc h hφ hacc (ix2 i j)).trans
    (congrArg (fun f => (Finset.univ : Finset (Fin c)).fold max (Ideal.ofBits .f32 acc) f)
      (funext fun k => congrArg src (lift_last h i j k)))

/-- The sum over the last axis at `(i, j)`: the sum of the row's entries. -/
theorem multiReduction_add_last {a b c : ℕ} (src : FVec Ideal ⟨3, ![a, b, c]⟩ .f32) (acc : BitVec 32)
    (h : (⟨3, ![a, b, c]⟩ : Shape).Reduces [2] (⟨2, ![a, b]⟩ : Shape)) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last h i j k))

end Cert.Rank3Rows

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.ScalarLaw.lean ====
/-
  The scalar mathematics of the certificate, on the extended reals.

  * softplus in its shifted spelling, `max s 0 + log (1 + exp (-|s|))`, of a REAL `s` is a positive real:
    `exp (-|s|) > 0`, so the logarithm's argument exceeds `1`.
  * The discretisation law. For a real step `Δ > 0` and reals `a`, `B`, `x`:
        ((e^{Δa} - 1) / (Δa)) · (Δ · B) · x   =   (((e^{Δa} - 1) / a) · B) · x
    on the extended reals, with the quotient's conventions at a zero divisor. For `a ≠ 0` every term is real and
    `Δ` cancels. For `a = 0` both quotients are `0 / 0`, one and the same extended real `q`, and
    `q · (Δ · B) = q · B` because `Δ · B` and `B` have the same sign and `q` is an infinity.
-/
import Idealize.ShloMosaic.PureOps.Ideal
import Idealize.ShloMosaic.Lib.IdealHost

noncomputable section

namespace Cert.Bridge

open Idealize.ShloMosaic

/-- The coercion of the reals into the extended reals is monotone, so it commutes with `max`. -/
theorem coe_max (a b : ℝ) : ((max a b : ℝ) : EReal) = max (a : EReal) (b : EReal) :=
  EReal.coe_strictMono.monotone.map_max

/-- softplus of a real, in the shifted spelling both programs use. -/
def sp (s : ℝ) : ℝ := max s 0 + Real.log (1 + Real.exp (-|s|))

theorem sp_pos (s : ℝ) : 0 < sp s := by
  have h1 : 0 < Real.log (1 + Real.exp (-|s|)) :=
    Real.log_pos (by have := Real.exp_pos (-|s|); linarith)
  have h2 : 0 ≤ max s 0 := le_max_right _ _
  unfold sp; linarith

/-- `log (1 + e^{-|s|})` on the extended reals, at a real `s`, with `-|s|` spelt `0 - max s (-s)`. -/
theorem log1p_exp_sub (s : ℝ) :
    Ideal.log1p (Ideal.exp ((0 : EReal) - max ((s : EReal) - 0) (-((s : EReal) - 0))))
      = ((Real.log (1 + Real.exp (-|s|)) : ℝ) : EReal) := by
  have e1 : max ((s : EReal) - 0) (-((s : EReal) - 0)) = ((|s| : ℝ) : EReal) := by
    rw [sub_zero, ← EReal.coe_neg, ← coe_max, abs_eq_max_neg]
  rw [e1, zero_sub, ← EReal.coe_neg, Ideal.exp_coe, Ideal.log1p, ← EReal.coe_one, ← EReal.coe_add, Ideal.log_coe,
    if_neg (by have := Real.exp_pos (-|s|); linarith)]

/-- The same with `-|s|` spelt as a negation. -/
theorem log1p_exp_neg (s : ℝ) :
    Ideal.log1p (Ideal.exp (-(max ((s : EReal) - 0) (-((s : EReal) - 0)))))
      = ((Real.log (1 + Real.exp (-|s|)) : ℝ) : EReal) := by
  rw [← log1p_exp_sub, zero_sub]

/-- The unordered comparison of a value with itself is false: nothing is unordered on the extended reals. -/
theorem cmp_one_self (x : EReal) : Ideal.cmp .one x x = 0#1 := by
  simp [Ideal.cmp]

theorem cmp_une_self (x : EReal) : Ideal.cmp .une x x = 0#1 := by
  simp [Ideal.cmp]

/-- softplus as the kernel spells it, at a real. -/
theorem softplus_kernel (s : ℝ) :
    Scalar.select (Ideal.cmp .one ((s : EReal) - 0) ((s : EReal) - 0)) ((s : EReal) + 0)
        (max (s : EReal) 0 + Ideal.log1p (Ideal.exp ((0 : EReal) - max ((s : EReal) - 0) (-((s : EReal) - 0)))))
      = ((sp s : ℝ) : EReal) := by
  rw [cmp_one_self, log1p_exp_sub]
  unfold Scalar.select sp
  rw [if_neg (by decide), ← EReal.coe_zero, ← coe_max, ← EReal.coe_add]

/-- softplus as the reference spells it, at a real. -/
theorem softplus_reference (s : ℝ) :
    Scalar.select (Ideal.cmp .une ((s : EReal) - 0) ((s : EReal) - 0)) ((s : EReal) + 0)
        (max (s : EReal) 0 + Ideal.log1p (Ideal.exp (-(max ((s : EReal) - 0) (-((s : EReal) - 0))))))
      = ((sp s : ℝ) : EReal) := by
  rw [cmp_une_self, log1p_exp_neg]
  unfold Scalar.select sp
  rw [if_neg (by decide), ← EReal.coe_zero, ← coe_max, ← EReal.coe_add]

/-- An infinity (or any value that is `⊥`) times a real depends only on the real's sign: scaling the real by a
    positive real changes nothing. -/
theorem bot_mul_scale (Δ B : ℝ) (hΔ : 0 < Δ) : (⊥ : EReal) * ((Δ * B : ℝ) : EReal) = ⊥ * (B : EReal) := by
  rcases lt_trichotomy B 0 with hB | hB | hB
  · rw [EReal.bot_mul_coe_of_neg (mul_neg_of_pos_of_neg hΔ hB), EReal.bot_mul_coe_of_neg hB]
  · subst hB; rw [mul_zero]
  · rw [EReal.bot_mul_coe_of_pos (mul_pos hΔ hB), EReal.bot_mul_coe_of_pos hB]

/-- THE LAW: the step cancels between the quotient's divisor and the input term. -/
theorem zoh_law (Δ a B x : ℝ) (hΔ : 0 < Δ) :
    Ideal.div (Ideal.exp ((Δ : EReal) * (a : EReal)) - 1) ((Δ : EReal) * (a : EReal)) * ((Δ : EReal) * (B : EReal)) * (x : EReal)
      = Ideal.div (Ideal.exp ((Δ : EReal) * (a : EReal)) - 1) (a : EReal) * (B : EReal) * (x : EReal) := by
  by_cases ha : a = 0
  · subst ha
    have e0 : ((Δ : EReal) * ((0 : ℝ) : EReal)) = 0 := by rw [EReal.coe_zero, mul_zero]
    rw [e0, EReal.coe_zero]
    have e1 : Ideal.exp (0 : EReal) - 1 = 0 := by
      rw [← EReal.coe_zero, Ideal.exp_coe, Real.exp_zero, ← EReal.coe_one, ← EReal.coe_sub, sub_self]
    rw [e1]
    have e2 : Ideal.div (0 : EReal) 0 = ⊥ := by unfold Ideal.div; rw [if_pos rfl, if_neg (lt_irrefl _)]
    rw [e2, ← EReal.coe_mul, bot_mul_scale Δ B hΔ]
  · have hΔa : Δ * a ≠ 0 := mul_ne_zero hΔ.ne' ha
    rw [← EReal.coe_mul, Ideal.exp_coe, ← EReal.coe_one, ← EReal.coe_sub, Ideal.div_coe hΔa, Ideal.div_coe ha,
      ← EReal.coe_mul, ← EReal.coe_mul, ← EReal.coe_mul, ← EReal.coe_mul, ← EReal.coe_mul, ← EReal.coe_mul, ← EReal.coe_mul]
    congr 1
    field_simp

end Cert.Bridge

end
-- ==== Proof.Spec.lean ====
/-
  The specification: the result array as ONE function of the six argument arrays, index by index, on the extended reals.

  With `x : [2, 2048, 1024]`, `W_b, W_c : [16, 1024]`, `W_Δ : [1, 1024]`, `A : [1024, 16]`, `δ : [1024]`, the result
  `[2, 2048, 2049, 16]` at `(b, l, j, n)` is

    j < 1024          e^{Δ(b,l,j) · A(j,n)}
    1024 ≤ j < 2048   ((e^{Δ(b,l,d) · A(d,n)} - 1) / A(d,n)) · B(b,l,n) · x(b,l,d)        with d = j - 1024
    j = 2048          C(b,l,n)

  where `B(b,l,n) = Σ_k x(b,l,k) · W_b(n,k)`, `C` the same with `W_c`, `s(b,l) = Σ_k x(b,l,k) · W_Δ(0,k)` and
  `Δ(b,l,d) = softplus (s(b,l) + δ(d))`, softplus in the shifted spelling `max u 0 + log (1 + e^{-|u|})` behind its
  self-comparison guard.
-/
import Idealize.ShloMosaic.PureOps.Ideal
import Idealize.ShloMosaic.Lib.ValueIdx
import proofs.«119682_j12378095747352_2_alg».proof.Proof.ScalarLaw

noncomputable section

namespace Cert.Bridge

open Idealize.ShloMosaic Idealize.ShloMosaic.ValueIdx

abbrev ShX : Shape := ⟨3, ![2, 2048, 1024]⟩
abbrev ShW : Shape := ⟨2, ![16, 1024]⟩
abbrev ShD : Shape := ⟨2, ![1, 1024]⟩
abbrev ShA : Shape := ⟨2, ![1024, 16]⟩
abbrev ShP : Shape := ⟨1, ![1024]⟩
abbrev ShO : Shape := ⟨4, ![2, 2048, 2049, 16]⟩

/-- softplus as the kernel spells it: the guard `u - 0 ≠ u - 0` (never true), then `max u 0 + log (1 + e^{0 - |u - 0|})`. -/
def softplusK (u : EReal) : EReal :=
  Scalar.select (Ideal.cmp .one (u - 0) (u - 0)) (u + 0)
    (max u 0 + Ideal.log1p (Ideal.exp ((0 : EReal) - max (u - 0) (-(u - 0)))))

/-- A row of `x` against a row of a `[16, 1024]` weight: `Σ_k x(b,l,k) · w(n,k)`. -/
def proj (x : ShX.Idx → EReal) (w : ShW.Idx → EReal) (b : Fin 2) (l : Fin 2048) (n : Fin 16) : EReal :=
  ∑ k : Fin 1024, x (ix3 b l k) * w (ix2 n k)

/-- A row of `x` against the one row of `W_Δ`: `Σ_k x(b,l,k) · W_Δ(0,k)`. -/
def srow (x : ShX.Idx → EReal) (wd : ShD.Idx → EReal) (b : Fin 2) (l : Fin 2048) : EReal :=
  ∑ k : Fin 1024, x (ix3 b l k) * wd (ix2 (0 : Fin 1) k)

/-- The step `Δ(b,l,d) = softplus (s(b,l) + δ(d))`. -/
def step (x : ShX.Idx → EReal) (wd : ShD.Idx → EReal) (dp : ShP.Idx → EReal) (b : Fin 2) (l : Fin 2048) (d : Fin 1024) : EReal :=
  softplusK (srow x wd b l + dp (ix1 d))

/-- The first band: `e^{Δ · A}`. -/
def abar (x : ShX.Idx → EReal) (wd : ShD.Idx → EReal) (a : ShA.Idx → EReal) (dp : ShP.Idx → EReal)
    (b : Fin 2) (l : Fin 2048) (d : Fin 1024) (n : Fin 16) : EReal :=
  Ideal.exp (step x wd dp b l d * a (ix2 d n))

/-- The second band: `((e^{Δ·A} - 1) / A) · B · x`. -/
def dbx (x : ShX.Idx → EReal) (wb : ShW.Idx → EReal) (wd : ShD.Idx → EReal) (a : ShA.Idx → EReal) (dp : ShP.Idx → EReal)
    (b : Fin 2) (l : Fin 2048) (d : Fin 1024) (n : Fin 16) : EReal :=
  Ideal.div (abar x wd a dp b l d n - Ideal.ofBits .f32 0x3F800000#32) (a (ix2 d n)) * proj x wb b l n * x (ix3 b l d)

/-- The result array. -/
def G (x : ShX.Idx → EReal) (wb wc : ShW.Idx → EReal) (wd : ShD.Idx → EReal) (a : ShA.Idx → EReal) (dp : ShP.Idx → EReal) :
    ShO.Idx → EReal := fun i =>
  if h1 : (i 2).val < 1024 then abar x wd a dp (i 0) (i 1) ⟨(i 2).val, h1⟩ (i 3)
  else if h2 : (i 2).val < 2048 then dbx x wb wd a dp (i 0) (i 1) ⟨(i 2).val - 1024, by omega⟩ (i 3)
  else proj x wc (i 0) (i 1) (i 3)

end Cert.Bridge

end
-- ==== Proof.KernelTerms.lean ====
/-
  The kernel body's values, read at an entry, on the extended reals.

  One grid point works on 16 consecutive rows of `x` (block `[1, 16, 1024]`) and the whole of the five small arrays.
  Row `r` of the block gives
    * `s(r) = Σ_k x(r,k) · W_Δ(0,k)` (a lane sum), kept as a column `[16, 1]`;
    * `B(r,n) = Σ_k x(r,k) · W_b(n,k)` and `C(r,n)` likewise with `W_c` (matrix products against a transposed weight);
  and, for each of the eight chunks of 128 channels (`δ_c : [1, 128]`, `A_c : [128, 16]`, `x_c : [16, 128]`):
    * the step `Δ(r,j) = softplus (s(r) + δ_c(j))`,
    * the first band `e^{Δ(r,j) · A_c(j,n)}`,
    * the second band `((e^{Δ(r,j)·A_c(j,n)} - 1) / A_c(j,n)) · B(r,n) · x_c(r,j)`.
  The step of a chunk is stated once, as a term of its own (`stepChunk`), and each chunk's printed values are that
  term by unfolding; the bands are the first chunk's printed terms, which every other chunk's equal by unfolding.
-/
import proofs.«119682_j12378095747352_2_alg».proof.Proof.Gen.KernelIdeal.Skeleton
import proofs.«119682_j12378095747352_2_alg».proof.Proof.LibColumnLayout
import proofs.«119682_j12378095747352_2_alg».proof.Proof.LibRank3Rows
import proofs.«119682_j12378095747352_2_alg».proof.Proof.LibPlainMatmul
import proofs.«119682_j12378095747352_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Idealize.ShloMosaic.ColumnLayout Cert.Rank3Rows
open Cert.KernelIdeal Cert.KernelIdeal.Gen

section AnyInstance
variable {F : FTy → Type} [FloatOps F]

/-- The step of one chunk: the column `s` and the chunk's row of `δ` broadcast to `[16, 128]`, added, then softplus
    in the kernel's spelling. -/
def stepChunk (s : FVec F S16x1 .f32) (dpc : Vec F S1x128 .f32) : FVec F S16x128 .f32 :=
  have v20 : FVec F S1x128 .f32 := shapeCast S1x128 dpc shapeCasts_S1x128_S1x128
  have v21 : FVec F S16x128 .f32 := broadcastTo S16x128 s broadcasts_S16x1_S16x128
  have v22 : FVec F S16x128 .f32 := broadcastTo S16x128 v20 broadcasts_S1x128_S16x128
  have v23 : FVec F S16x128 .f32 := addf v21 v22
  have z : FVec F S16x128 .f32 := broadcast S16x128 (Scalar.ofBits .f32 0x00000000#32)
  select (cmpf .one (subf v23 z) (subf v23 z)) (addf v23 z)
    (addf (maximumf v23 z) (log1p (exp (subf z (absf (subf v23 z))))))

/-- The first chunk's step is the chunk step. -/
theorem pay9_eq (v0 : Vec F S1x16x1024 .f32) (v11 : Vec F S1x1024 .f32) (v19 : Vec F S1x128 .f32) :
    k0_pay9 v0 v11 v19 = stepChunk (k0_pay6 v0 v11) v19 := rfl

end AnyInstance

/-! ## The terms at an entry, at the ideal instance -/

/-- The lane sum: row `r` of the block against the one row of `W_Δ`. -/
theorem pay6_apply (x0 : FVec Ideal S1x16x1024 .f32) (x3 : FVec Ideal S1x1024 .f32) (r : Fin 16) (u : Fin 1) :
    k0_pay6 (F := Ideal) x0 x3 (ix2 r u) = ∑ k : Fin 1024, x0 (ix3 (0 : Fin 1) r k) * x3 (ix2 (0 : Fin 1) k) := by
  unfold k0_pay6 k0_pay3
  refine (shapeCast_a_a1_apply _ shapeCasts_S16_S16x1 r u).trans ?_
  refine (rowSum_apply _ reduces_S16x1024_S16 _ _ r).trans ?_
  refine Finset.sum_congr rfl fun k _ => ?_
  show shapeCast S16x1024 x0 shapeCasts_S1x16x1024_S16x1024 (ix2 r k) * broadcastTo S16x1024 x3 broadcasts_S1x1024_S16x1024 (ix2 r k) = _
  rw [shapeCast_1ab_ab_apply, broadcastTo_1b_ab_apply]

/-- The chunk step at `(r, j)`: softplus of `s(r) + δ_c(j)`. -/
theorem stepChunk_apply (s : FVec Ideal S16x1 .f32) (dpc : FVec Ideal S1x128 .f32) (r : Fin 16) (j : Fin 128) :
    stepChunk (F := Ideal) s dpc (ix2 r j) = Cert.Bridge.softplusK (s (ix2 r (0 : Fin 1)) + dpc (ix2 (0 : Fin 1) j)) := by
  have e : addf (broadcastTo S16x128 s broadcasts_S16x1_S16x128)
      (broadcastTo S16x128 (shapeCast S1x128 dpc shapeCasts_S1x128_S1x128) broadcasts_S1x128_S16x128) (ix2 r j)
      = s (ix2 r (0 : Fin 1)) + dpc (ix2 (0 : Fin 1) j) := by
    show broadcastTo S16x128 s broadcasts_S16x1_S16x128 (ix2 r j)
      + broadcastTo S16x128 (shapeCast S1x128 dpc shapeCasts_S1x128_S1x128) broadcasts_S1x128_S16x128 (ix2 r j) = _
    rw [broadcastTo_a1_ab_apply, broadcastTo_1b_ab_apply, Idealize.ShloMosaic.shapeCast_self]
  have hz : (Scalar.ofBits .f32 0x00000000#32 : Ideal .f32) = 0 := Ideal.ofBits_zero_f32
  unfold stepChunk Cert.Bridge.softplusK
  show Scalar.select (Ideal.cmp .one (_ - _) (_ - _)) (_ + _) (max _ _ + Ideal.log1p (Ideal.exp (_ - max (_ - _) (-(_ - _))))) = _
  simp only [ValueIdx.broadcast_apply, hz, e]

/-- The first band at `(r, j, n)`. -/
theorem pay11_apply (Δ : FVec Ideal S16x128 .f32) (ac : FVec Ideal S128x16 .f32) (u : Fin 1) (r : Fin 16) (j : Fin 128) (n : Fin 16) :
    k0_pay11 (F := Ideal) Δ ac (ix4 u r j n) = Ideal.exp (Δ (ix2 r j) * ac (ix2 j n)) := by
  unfold k0_pay11 k0_pay10
  refine (shapeCast_abc_1abc_apply _ shapeCasts_S16x128x16_S1x16x128x16 u r j n).trans ?_
  show Ideal.exp (broadcastTo S16x128x16 (shapeCast S16x128x1 Δ shapeCasts_S16x128_S16x128x1) broadcasts_S16x128x1_S16x128x16 (ix3 r j n)
    * broadcastTo S16x128x16 (shapeCast S1x128x16 ac shapeCasts_S128x16_S1x128x16) broadcasts_S1x128x16_S16x128x16 (ix3 r j n)) = _
  rw [broadcastTo_ab1_abc_apply, broadcastTo_1bc_abc_apply, shapeCast_ab_ab1_apply, shapeCast_ab_1ab_apply]

/-- The second band at `(r, j, n)`. -/
theorem pay12_apply (B16 : FVec Ideal S16x1x16 .f32) (xc : FVec Ideal S16x128 .f32) (Δ : FVec Ideal S16x128 .f32)
    (ac : FVec Ideal S128x16 .f32) (u : Fin 1) (r : Fin 16) (j : Fin 128) (n : Fin 16) :
    k0_pay12 (F := Ideal) B16 xc Δ ac (ix4 u r j n)
      = Ideal.div (Ideal.exp (Δ (ix2 r j) * ac (ix2 j n)) - Ideal.ofBits .f32 0x3F800000#32) (ac (ix2 j n))
          * B16 (ix3 r (0 : Fin 1) n) * xc (ix2 r j) := by
  unfold k0_pay12 k0_pay10
  refine (shapeCast_abc_1abc_apply _ shapeCasts_S16x128x16_S1x16x128x16 u r j n).trans ?_
  show Ideal.div (Ideal.exp (broadcastTo S16x128x16 (shapeCast S16x128x1 Δ shapeCasts_S16x128_S16x128x1) broadcasts_S16x128x1_S16x128x16 (ix3 r j n)
      * broadcastTo S16x128x16 (shapeCast S1x128x16 ac shapeCasts_S128x16_S1x128x16) broadcasts_S1x128x16_S16x128x16 (ix3 r j n))
        - Ideal.ofBits .f32 0x3F800000#32)
      (broadcastTo S16x128x16 (shapeCast S1x128x16 ac shapeCasts_S128x16_S1x128x16) broadcasts_S1x128x16_S16x128x16 (ix3 r j n))
    * broadcastTo S16x128x16 B16 broadcasts_S16x1x16_S16x128x16 (ix3 r j n)
    * broadcastTo S16x128x16 (shapeCast S16x128x1 xc shapeCasts_S16x128_S16x128x1) broadcasts_S16x128x1_S16x128x16 (ix3 r j n) = _
  rw [broadcastTo_ab1_abc_apply, broadcastTo_1bc_abc_apply, broadcastTo_a1c_abc_apply, broadcastTo_ab1_abc_apply,
    shapeCast_ab_ab1_apply, shapeCast_ab_1ab_apply, shapeCast_ab_ab1_apply]

/-- A chunk of the block of `x`, as a matrix. -/
theorem pay8_apply (v17 : FVec Ideal S1x16x128 .f32) (r : Fin 16) (j : Fin 128) :
    k0_pay8 (F := Ideal) v17 (ix2 r j) = v17 (ix3 (0 : Fin 1) r j) := by
  unfold k0_pay8
  exact shapeCast_1ab_ab_apply _ shapeCasts_S1x16x128_S16x128 r j

/-- The last band's piece `[1, 16, 1, 16]` of a `[16, 16]` matrix. -/
theorem pay2_apply (v10 : FVec Ideal S16x16 .f32) (u : Fin 1) (r : Fin 16) (w : Fin 1) (n : Fin 16) :
    k0_pay2 (F := Ideal) v10 (ix4 u r w n) = v10 (ix2 r n) := by
  unfold k0_pay2
  refine (shapeCast_abc_1abc_apply _ shapeCasts_S16x1x16_S1x16x1x16 u r w n).trans ?_
  exact shapeCast_ac_a1c_apply _ shapeCasts_S16x16_S16x1x16 r w n

/-- The rows of the block against the rows of a `[16, 1024]` weight: the product of the block (as a matrix) by the
    transposed weight, into the zero accumulator, at `(r, n)`. -/
theorem rowsByRows_apply (x0 : FVec Ideal S1x16x1024 .f32) (w : FVec Ideal S16x1024 .f32) (r : Fin 16) (n : Fin 16) :
    matmul dot_S16x1024_S1024x16_S16x16_1_0_0_1_n_n none (k0_pay4 (F := Ideal) x0)
        (transpose S1024x16 [1, 0] (truncf .bf16 w bitsLt_bf16_f32) transposes_S16x1024_p1_0_S1024x16)
        (constant S16x16 .f32 0x00000000#32) (ix2 r n)
      = ∑ k : Fin 1024, x0 (ix3 (0 : Fin 1) r k) * w (ix2 n k) := by
  refine (Idealize.ShloMosaic.PlainMatmul.matmul_zero_apply (m := 16) (k := 1024) (n := 16) none _ _ r n).trans ?_
  refine Finset.sum_congr rfl fun k _ => ?_
  unfold k0_pay4 k0_pay3
  show shapeCast S16x1024 x0 shapeCasts_S1x16x1024_S16x1024 (ix2 r k)
    * transpose S1024x16 [1, 0] (truncf .bf16 w bitsLt_bf16_f32) transposes_S16x1024_p1_0_S1024x16 (ix2 k n) = _
  rw [shapeCast_1ab_ab_apply, transpose_ix2_apply]
  rfl

/-- `C` of the block: rows against the rows of `W_c`. -/
theorem pay5_apply (x0 : FVec Ideal S1x16x1024 .f32) (w : FVec Ideal S16x1024 .f32) (r : Fin 16) (n : Fin 16) :
    k0_pay5 (F := Ideal) x0 w (ix2 r n) = ∑ k : Fin 1024, x0 (ix3 (0 : Fin 1) r k) * w (ix2 n k) := by
  unfold k0_pay5
  exact rowsByRows_apply x0 w r n

/-- `B` of the block, kept as `[16, 1, 16]`: rows against the rows of `W_b`. -/
theorem pay7_apply (x0 : FVec Ideal S1x16x1024 .f32) (w : FVec Ideal S16x1024 .f32) (r : Fin 16) (u : Fin 1) (n : Fin 16) :
    k0_pay7 (F := Ideal) x0 w (ix3 r u n) = ∑ k : Fin 1024, x0 (ix3 (0 : Fin 1) r k) * w (ix2 n k) := by
  unfold k0_pay7
  refine (shapeCast_ac_a1c_apply _ shapeCasts_S16x16_S16x1x16 r u n).trans ?_
  exact rowsByRows_apply x0 w r n

end Cert.KernelIdeal.Bridge

end
-- ==== Proof.ChunkTerms.lean ====
/-
  Every chunk's printed values are the uniform terms.

  The kernel body repeats one computation for eight chunks of 128 channels; the printed body is cut into parts at fixed
  positions, so the eight repetitions are spelt through differently shaped intermediate values. Unfolded, each chunk's
  first band is `k0_pay11 (stepChunk s δ_c) A_c` and its second band `k0_pay12 B (k0_pay8 x_c) (stepChunk s δ_c) A_c`:
  the first chunk's terms at the chunk's own loads. Each identity holds by unfolding the definitions.
-/
import proofs.«119682_j12378095747352_2_alg».proof.Proof.KernelTerms

noncomputable section

namespace Cert.KernelIdeal.Bridge

open Idealize.ShloMosaic Idealize.ShloMosaic.ValueIdx
open Cert.KernelIdeal Cert.KernelIdeal.Gen

variable {F : FTy → Type} [FloatOps F]
variable (s : FVec F S16x1 .f32) (B : FVec F S16x1x16 .f32) (d : Vec F S1x128 .f32) (a : Vec F S128x16 .f32) (xr : Vec F S1x16x128 .f32)

/-! ## Chunk 1 -/
theorem abar1_eq : k0_pay21 (k0_pay15 s d) (k0_pay17 s d) (k0_pay18 s d) (k0_pay19 s d) a = k0_pay11 (stepChunk s d) a := rfl
theorem dbx1_eq : k0_pay22 B (k0_pay13 xr) (k0_pay15 s d) (k0_pay17 s d) (k0_pay18 s d) (k0_pay19 s d) a
    = k0_pay12 B (k0_pay8 xr) (stepChunk s d) a := rfl

/-! ## Chunk 2 -/
theorem abar2_eq : k0_pay31 (k0_pay25 s d) (k0_pay27 s d) (k0_pay28 s d) (k0_pay29 s d) a = k0_pay11 (stepChunk s d) a := rfl
theorem dbx2_eq : k0_pay32 B (k0_pay23 xr) (k0_pay25 s d) (k0_pay27 s d) (k0_pay28 s d) (k0_pay29 s d) a
    = k0_pay12 B (k0_pay8 xr) (stepChunk s d) a := rfl

/-! ## Chunk 3 -/
theorem abar3_eq : k0_pay38 (k0_pay34 s d) (FloatOps.ofBits .f32 0x00000000#32) (k0_pay35 s d) (k0_pay36 s d) a
    = k0_pay11 (stepChunk s d) a := rfl
theorem dbx3_eq : k0_pay39 B (k0_pay33 xr) (k0_pay34 s d) (FloatOps.ofBits .f32 0x00000000#32) (k0_pay35 s d) (k0_pay36 s d) a
    = k0_pay12 B (k0_pay8 xr) (stepChunk s d) a := rfl

/-! ## Chunk 4 -/
theorem abar4_eq : k0_pay43 (k0_pay41 s d) (FloatOps.ofBits .f32 0x00000000#32) a = k0_pay11 (stepChunk s d) a := rfl
theorem dbx4_eq : k0_pay44 B (k0_pay40 xr) (k0_pay41 s d) (FloatOps.ofBits .f32 0x00000000#32) a
    = k0_pay12 B (k0_pay8 xr) (stepChunk s d) a := rfl

/-! ## Chunk 5 -/
theorem abar5_eq : k0_pay48 s (k0_pay46 d) a = k0_pay11 (stepChunk s d) a := rfl
theorem dbx5_eq : k0_pay49 s B (k0_pay45 xr) (k0_pay46 d) a = k0_pay12 B (k0_pay8 xr) (stepChunk s d) a := rfl

/-! ## Chunk 6 -/
theorem abar6_eq : k0_pay52 s d a = k0_pay11 (stepChunk s d) a := rfl
theorem dbx6_eq : k0_pay53 s B (k0_pay50 xr) d a = k0_pay12 B (k0_pay8 xr) (stepChunk s d) a := rfl

/-! ## Chunk 7 -/
theorem abar7_eq : k0_pay56 s d a = k0_pay11 (stepChunk s d) a := rfl
theorem dbx7_eq : k0_pay1 (k0_pay55 s B xr d a) = k0_pay12 B (k0_pay8 xr) (stepChunk s d) a := rfl

end Cert.KernelIdeal.Bridge

end
-- ==== Proof.RowSpec.lean ====
/-
  The result, row by row. Entry `(b, l, j, n)` of the result depends on `x` only through its row `x(b, l, ·)`: with that
  row `ξ : Fin 1024 → EReal`,

    j < 1024          e^{softplus (⟨ξ, W_Δ⟩ + δ(j)) · A(j,n)}
    1024 ≤ j < 2048   ((e^{softplus (⟨ξ, W_Δ⟩ + δ(d)) · A(d,n)} - 1) / A(d,n)) · ⟨ξ, W_b(n,·)⟩ · ξ(d)      d = j - 1024
    j = 2048          ⟨ξ, W_c(n,·)⟩

  A grid point of the kernel computes exactly this function of each of its 16 rows; the whole array is this function of
  each row of `x`.
-/
import proofs.«119682_j12378095747352_2_alg».proof.Proof.Spec

noncomputable section

namespace Cert.Bridge

open Idealize.ShloMosaic Idealize.ShloMosaic.ValueIdx

/-- A row against the one row of `W_Δ`. -/
def rowS (ξ : Fin 1024 → EReal) (wd : ShD.Idx → EReal) : EReal := ∑ k : Fin 1024, ξ k * wd (ix2 (0 : Fin 1) k)

/-- A row against row `n` of a `[16, 1024]` weight. -/
def rowP (ξ : Fin 1024 → EReal) (w : ShW.Idx → EReal) (n : Fin 16) : EReal := ∑ k : Fin 1024, ξ k * w (ix2 n k)

/-- The first band of a row. -/
def rowAbar (ξ : Fin 1024 → EReal) (wd : ShD.Idx → EReal) (a : ShA.Idx → EReal) (δ : Fin 1024 → EReal) (d : Fin 1024) (n : Fin 16) : EReal :=
  Ideal.exp (softplusK (rowS ξ wd + δ d) * a (ix2 d n))

/-- The second band of a row. -/
def rowDbx (ξ : Fin 1024 → EReal) (wb : ShW.Idx → EReal) (wd : ShD.Idx → EReal) (a : ShA.Idx → EReal) (δ : Fin 1024 → EReal)
    (d : Fin 1024) (n : Fin 16) : EReal :=
  Ideal.div (rowAbar ξ wd a δ d n - Ideal.ofBits .f32 0x3F800000#32) (a (ix2 d n)) * rowP ξ wb n * ξ d

/-- All `2049 × 16` results of one row. -/
def rowOut (ξ : Fin 1024 → EReal) (wb wc : ShW.Idx → EReal) (wd : ShD.Idx → EReal) (a : ShA.Idx → EReal) (δ : Fin 1024 → EReal)
    (j : Fin 2049) (n : Fin 16) : EReal :=
  if h1 : j.val < 1024 then rowAbar ξ wd a δ ⟨j.val, h1⟩ n
  else if h2 : j.val < 2048 then rowDbx ξ wb wd a δ ⟨j.val - 1024, by omega⟩ n
  else rowP ξ wc n

/-- The result array is the row function of each row of `x`. -/
theorem G_eq_rowOut (x : ShX.Idx → EReal) (wb wc : ShW.Idx → EReal) (wd : ShD.Idx → EReal) (a : ShA.Idx → EReal) (dp : ShP.Idx → EReal)
    (i : ShO.Idx) :
    G x wb wc wd a dp i = rowOut (fun k => x (ix3 (i 0) (i 1) k)) wb wc wd a (fun d => dp (ix1 d)) (i 2) (i 3) := rfl

end Cert.Bridge

end
-- ==== Proof.BlockValue.lean ====
/-
  What one grid point leaves in its output block.

  The body's 17 stores write disjoint bands of the block `[1, 16, 2049, 16]` along its third axis: for each chunk `c`
  of 128 channels the rows `128c … 128c+127` (first band) and `1024+128c … 1024+128c+127` (second band), and the last
  row `2048`. Every stored value is, entry by entry, the row function `rowOut` of the block's row `r` of `x` and the
  whole small arrays, at the entry's own position: a chunk's loads start at the chunk's offset, and the store's
  rectangle starts at the same offset (plus 1024 for the second band).
-/
import proofs.«119682_j12378095747352_2_alg».proof.Proof.Gen.KernelIdeal.Frame.RunA
import proofs.«119682_j12378095747352_2_alg».proof.Proof.ChunkTerms
import proofs.«119682_j12378095747352_2_alg».proof.Proof.RowSpec

noncomputable section

namespace Cert.KernelIdeal.Bridge

open Idealize.ShloMosaic Idealize.ShloMosaic.ValueIdx
open Cert.KernelIdeal Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Bridge

set_option maxRecDepth 16384

/-! ## The pieces, spelt with the uniform terms -/

section AnyInstance
variable {F : FTy → Type} [FloatOps F]

/-- The 17 pieces a run of the body leaves in the output block, last store first. -/
def pieceList (x0 : Vec F S1x16x1024 .f32) (x1 x2 : Vec F S16x1024 .f32) (x3 : Vec F S1x1024 .f32) (x4 : Vec F S1024x16 .f32)
    (x5 : Vec F S1x1024 .f32) : List (View.Piece (Elt F) S1x16x2049x16 .f32) :=
  [ ⟨Rect.unit (s := S1x16x2049x16) ![0, 0, 2048, 0] S1x16x1x16.size inb_S1x16x2049x16_S1x16x1x16_0_0_2048_0, k0_pay2 (k0_pay5 x0 x2)⟩,
    ⟨Rect.unit (s := S1x16x2049x16) ![0, 0, 1920, 0] S1x16x128x16.size inb_S1x16x2049x16_S1x16x128x16_0_0_1920_0,
      k0_pay12 (k0_pay7 x0 x1) (k0_pay8 (View.ld x0 (Rect.unit (s := S1x16x1024) ![0, 0, 896] S1x16x128.size inb_S1x16x1024_S1x16x128_0_0_896))) (stepChunk (k0_pay6 x0 x3) (View.ld x5 (Rect.unit (s := S1x1024) ![0, 896] S1x128.size inb_S1x1024_S1x128_0_896))) (View.ld x4 (Rect.unit (s := S1024x16) ![896, 0] S128x16.size inb_S1024x16_S128x16_896_0))⟩,
    ⟨Rect.unit (s := S1x16x2049x16) ![0, 0, 896, 0] S1x16x128x16.size inb_S1x16x2049x16_S1x16x128x16_0_0_896_0,
      k0_pay11 (stepChunk (k0_pay6 x0 x3) (View.ld x5 (Rect.unit (s := S1x1024) ![0, 896] S1x128.size inb_S1x1024_S1x128_0_896))) (View.ld x4 (Rect.unit (s := S1024x16) ![896, 0] S128x16.size inb_S1024x16_S128x16_896_0))⟩,
    ⟨Rect.unit (s := S1x16x2049x16) ![0, 0, 1792, 0] S1x16x128x16.size inb_S1x16x2049x16_S1x16x128x16_0_0_1792_0,
      k0_pay12 (k0_pay7 x0 x1) (k0_pay8 (View.ld x0 (Rect.unit (s := S1x16x1024) ![0, 0, 768] S1x16x128.size inb_S1x16x1024_S1x16x128_0_0_768))) (stepChunk (k0_pay6 x0 x3) (View.ld x5 (Rect.unit (s := S1x1024) ![0, 768] S1x128.size inb_S1x1024_S1x128_0_768))) (View.ld x4 (Rect.unit (s := S1024x16) ![768, 0] S128x16.size inb_S1024x16_S128x16_768_0))⟩,
    ⟨Rect.unit (s := S1x16x2049x16) ![0, 0, 768, 0] S1x16x128x16.size inb_S1x16x2049x16_S1x16x128x16_0_0_768_0,
      k0_pay11 (stepChunk (k0_pay6 x0 x3) (View.ld x5 (Rect.unit (s := S1x1024) ![0, 768] S1x128.size inb_S1x1024_S1x128_0_768))) (View.ld x4 (Rect.unit (s := S1024x16) ![768, 0] S128x16.size inb_S1024x16_S128x16_768_0))⟩,
    ⟨Rect.unit (s := S1x16x2049x16) ![0, 0, 1664, 0] S1x16x128x16.size inb_S1x16x2049x16_S1x16x128x16_0_0_1664_0,
      k0_pay12 (k0_pay7 x0 x1) (k0_pay8 (View.ld x0 (Rect.unit (s := S1x16x1024) ![0, 0, 640] S1x16x128.size inb_S1x16x1024_S1x16x128_0_0_640))) (stepChunk (k0_pay6 x0 x3) (View.ld x5 (Rect.unit (s := S1x1024) ![0, 640] S1x128.size inb_S1x1024_S1x128_0_640))) (View.ld x4 (Rect.unit (s := S1024x16) ![640, 0] S128x16.size inb_S1024x16_S128x16_640_0))⟩,
    ⟨Rect.unit (s := S1x16x2049x16) ![0, 0, 640, 0] S1x16x128x16.size inb_S1x16x2049x16_S1x16x128x16_0_0_640_0,
      k0_pay11 (stepChunk (k0_pay6 x0 x3) (View.ld x5 (Rect.unit (s := S1x1024) ![0, 640] S1x128.size inb_S1x1024_S1x128_0_640))) (View.ld x4 (Rect.unit (s := S1024x16) ![640, 0] S128x16.size inb_S1024x16_S128x16_640_0))⟩,
    ⟨Rect.unit (s := S1x16x2049x16) ![0, 0, 1536, 0] S1x16x128x16.size inb_S1x16x2049x16_S1x16x128x16_0_0_1536_0,
      k0_pay12 (k0_pay7 x0 x1) (k0_pay8 (View.ld x0 (Rect.unit (s := S1x16x1024) ![0, 0, 512] S1x16x128.size inb_S1x16x1024_S1x16x128_0_0_512))) (stepChunk (k0_pay6 x0 x3) (View.ld x5 (Rect.unit (s := S1x1024) ![0, 512] S1x128.size inb_S1x1024_S1x128_0_512))) (View.ld x4 (Rect.unit (s := S1024x16) ![512, 0] S128x16.size inb_S1024x16_S128x16_512_0))⟩,
    ⟨Rect.unit (s := S1x16x2049x16) ![0, 0, 512, 0] S1x16x128x16.size inb_S1x16x2049x16_S1x16x128x16_0_0_512_0,
      k0_pay11 (stepChunk (k0_pay6 x0 x3) (View.ld x5 (Rect.unit (s := S1x1024) ![0, 512] S1x128.size inb_S1x1024_S1x128_0_512))) (View.ld x4 (Rect.unit (s := S1024x16) ![512, 0] S128x16.size inb_S1024x16_S128x16_512_0))⟩,
    ⟨Rect.unit (s := S1x16x2049x16) ![0, 0, 1408, 0] S1x16x128x16.size inb_S1x16x2049x16_S1x16x128x16_0_0_1408_0,
      k0_pay12 (k0_pay7 x0 x1) (k0_pay8 (View.ld x0 (Rect.unit (s := S1x16x1024) ![0, 0, 384] S1x16x128.size inb_S1x16x1024_S1x16x128_0_0_384))) (stepChunk (k0_pay6 x0 x3) (View.ld x5 (Rect.unit (s := S1x1024) ![0, 384] S1x128.size inb_S1x1024_S1x128_0_384))) (View.ld x4 (Rect.unit (s := S1024x16) ![384, 0] S128x16.size inb_S1024x16_S128x16_384_0))⟩,
    ⟨Rect.unit (s := S1x16x2049x16) ![0, 0, 384, 0] S1x16x128x16.size inb_S1x16x2049x16_S1x16x128x16_0_0_384_0,
      k0_pay11 (stepChunk (k0_pay6 x0 x3) (View.ld x5 (Rect.unit (s := S1x1024) ![0, 384] S1x128.size inb_S1x1024_S1x128_0_384))) (View.ld x4 (Rect.unit (s := S1024x16) ![384, 0] S128x16.size inb_S1024x16_S128x16_384_0))⟩,
    ⟨Rect.unit (s := S1x16x2049x16) ![0, 0, 1280, 0] S1x16x128x16.size inb_S1x16x2049x16_S1x16x128x16_0_0_1280_0,
      k0_pay12 (k0_pay7 x0 x1) (k0_pay8 (View.ld x0 (Rect.unit (s := S1x16x1024) ![0, 0, 256] S1x16x128.size inb_S1x16x1024_S1x16x128_0_0_256))) (stepChunk (k0_pay6 x0 x3) (View.ld x5 (Rect.unit (s := S1x1024) ![0, 256] S1x128.size inb_S1x1024_S1x128_0_256))) (View.ld x4 (Rect.unit (s := S1024x16) ![256, 0] S128x16.size inb_S1024x16_S128x16_256_0))⟩,
    ⟨Rect.unit (s := S1x16x2049x16) ![0, 0, 256, 0] S1x16x128x16.size inb_S1x16x2049x16_S1x16x128x16_0_0_256_0,
      k0_pay11 (stepChunk (k0_pay6 x0 x3) (View.ld x5 (Rect.unit (s := S1x1024) ![0, 256] S1x128.size inb_S1x1024_S1x128_0_256))) (View.ld x4 (Rect.unit (s := S1024x16) ![256, 0] S128x16.size inb_S1024x16_S128x16_256_0))⟩,
    ⟨Rect.unit (s := S1x16x2049x16) ![0, 0, 1152, 0] S1x16x128x16.size inb_S1x16x2049x16_S1x16x128x16_0_0_1152_0,
      k0_pay12 (k0_pay7 x0 x1) (k0_pay8 (View.ld x0 (Rect.unit (s := S1x16x1024) ![0, 0, 128] S1x16x128.size inb_S1x16x1024_S1x16x128_0_0_128))) (stepChunk (k0_pay6 x0 x3) (View.ld x5 (Rect.unit (s := S1x1024) ![0, 128] S1x128.size inb_S1x1024_S1x128_0_128))) (View.ld x4 (Rect.unit (s := S1024x16) ![128, 0] S128x16.size inb_S1024x16_S128x16_128_0))⟩,
    ⟨Rect.unit (s := S1x16x2049x16) ![0, 0, 128, 0] S1x16x128x16.size inb_S1x16x2049x16_S1x16x128x16_0_0_128_0,
      k0_pay11 (stepChunk (k0_pay6 x0 x3) (View.ld x5 (Rect.unit (s := S1x1024) ![0, 128] S1x128.size inb_S1x1024_S1x128_0_128))) (View.ld x4 (Rect.unit (s := S1024x16) ![128, 0] S128x16.size inb_S1024x16_S128x16_128_0))⟩,
    ⟨Rect.unit (s := S1x16x2049x16) ![0, 0, 1024, 0] S1x16x128x16.size inb_S1x16x2049x16_S1x16x128x16_0_0_1024_0,
      k0_pay12 (k0_pay7 x0 x1) (k0_pay8 (View.ld x0 (Rect.unit (s := S1x16x1024) ![0, 0, 0] S1x16x128.size inb_S1x16x1024_S1x16x128_0_0_0))) (stepChunk (k0_pay6 x0 x3) (View.ld x5 (Rect.unit (s := S1x1024) ![0, 0] S1x128.size inb_S1x1024_S1x128_0_0))) (View.ld x4 (Rect.unit (s := S1024x16) ![0, 0] S128x16.size inb_S1024x16_S128x16_0_0))⟩,
    ⟨Rect.unit (s := S1x16x2049x16) ![0, 0, 0, 0] S1x16x128x16.size inb_S1x16x2049x16_S1x16x128x16_0_0_0_0,
      k0_pay11 (stepChunk (k0_pay6 x0 x3) (View.ld x5 (Rect.unit (s := S1x1024) ![0, 0] S1x128.size inb_S1x1024_S1x128_0_0))) (View.ld x4 (Rect.unit (s := S1024x16) ![0, 0] S128x16.size inb_S1024x16_S128x16_0_0))⟩ ]

theorem zeros3 : (![0, 0, 0] : Fin 3 → Nat) = fun _ => 0 := funext fun a => by fin_cases a <;> rfl
theorem zeros2 : (![0, 0] : Fin 2 → Nat) = fun _ => 0 := funext fun a => by fin_cases a <;> rfl

/-- The run's pieces are these. -/
theorem pieces_eq (c : Dev nD) (i : grid0.Coords) (arg2 : Memref sig .tc .vmem S1x16x1024 .f32) (harg2 : arg2.IsWhole) (arg3 : Memref sig .tc .vmem S16x1024 .f32) (harg3 : arg3.IsWhole) (arg4 : Memref sig .tc .vmem S16x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1x16x2049x16 .f32) (harg8 : arg8.IsWhole)
    (x0 : Vec F S1x16x1024 .f32) (x1 : Vec F S16x1024 .f32) (x2 : Vec F S16x1024 .f32) (x3 : Vec F S1x1024 .f32) (x4 : Vec F S1024x16 .f32) (x5 : Vec F S1x1024 .f32) :
    (kernelRun0_A c i arg2 harg2 arg3 harg3 arg4 harg4 arg5 harg5 arg6 harg6 arg7 harg7 arg8 harg8 x0 x1 x2 x3 x4 x5).1 = pieceList x0 x1 x2 x3 x4 x5 := by
  unfold kernelRun0_A
  dsimp only
  sl_unfold_words
  simp only [View.readAt_eq_ld, harg2.read_unread, harg3.read_unread, harg4.read_unread, harg5.read_unread, harg6.read_unread,
    harg7.read_unread]
  simp only [View.ld_unit_zero (S := S1x16x1024) zeros3, View.ld_unit_zero (S := S16x1024) zeros2,
    View.ld_unit_zero (S := S1x1024) zeros2]
  rfl

end AnyInstance

/-! ## The block's value -/

/-- The output block as one function of the input blocks: the row function of row `y 1` of the block of `x`. -/
def Gblk (x0 : FVec Ideal S1x16x1024 .f32) (x1 x2 : FVec Ideal S16x1024 .f32) (x3 : FVec Ideal S1x1024 .f32)
    (x4 : FVec Ideal S1024x16 .f32) (x5 : FVec Ideal S1x1024 .f32) : S1x16x2049x16.Idx → EReal :=
  fun y => rowOut (fun k => x0 (ix3 (0 : Fin 1) (⟨(y 1).val, (y 1).isLt⟩ : Fin 16) k)) x1 x2 x3 x4 (fun d => x5 (ix2 (0 : Fin 1) d))
    (⟨(y 2).val, (y 2).isLt⟩ : Fin 2049) (⟨(y 3).val, (y 3).isLt⟩ : Fin 16)

variable (x0 : FVec Ideal S1x16x1024 .f32) (x1 x2 : FVec Ideal S16x1024 .f32) (x3 : FVec Ideal S1x1024 .f32)
  (x4 : FVec Ideal S1024x16 .f32) (x5 : FVec Ideal S1x1024 .f32)

/-- The block's value in the first band. -/
theorem Gblk_low (y : S1x16x2049x16.Idx) (r : Fin 16) (d : Fin 1024) (n : Fin 16)
    (h1 : (y 1).val = r.val) (h2 : (y 2).val = d.val) (h3 : (y 3).val = n.val) :
    Gblk x0 x1 x2 x3 x4 x5 y
      = Ideal.exp (softplusK ((∑ k : Fin 1024, x0 (ix3 (0 : Fin 1) r k) * x3 (ix2 (0 : Fin 1) k)) + x5 (ix2 (0 : Fin 1) d)) * x4 (ix2 d n)) := by
  have e1 : (⟨(y 1).val, (y 1).isLt⟩ : Fin 16) = r := Fin.ext h1
  have e3 : (⟨(y 3).val, (y 3).isLt⟩ : Fin 16) = n := Fin.ext h3
  have hd : (y 2).val < 1024 := by rw [h2]; exact d.isLt
  unfold Gblk rowOut
  rw [dif_pos hd, e1, e3]
  have e2 : (⟨(y 2).val, hd⟩ : Fin 1024) = d := Fin.ext h2
  rw [e2]
  rfl

/-- The block's value in the second band. -/
theorem Gblk_mid (y : S1x16x2049x16.Idx) (r : Fin 16) (d : Fin 1024) (n : Fin 16)
    (h1 : (y 1).val = r.val) (h2 : (y 2).val = 1024 + d.val) (h3 : (y 3).val = n.val) :
    Gblk x0 x1 x2 x3 x4 x5 y
      = Ideal.div (Ideal.exp (softplusK ((∑ k : Fin 1024, x0 (ix3 (0 : Fin 1) r k) * x3 (ix2 (0 : Fin 1) k)) + x5 (ix2 (0 : Fin 1) d)) * x4 (ix2 d n))
            - Ideal.ofBits .f32 0x3F800000#32) (x4 (ix2 d n))
          * (∑ k : Fin 1024, x0 (ix3 (0 : Fin 1) r k) * x1 (ix2 n k)) * x0 (ix3 (0 : Fin 1) r d) := by
  have e1 : (⟨(y 1).val, (y 1).isLt⟩ : Fin 16) = r := Fin.ext h1
  have e3 : (⟨(y 3).val, (y 3).isLt⟩ : Fin 16) = n := Fin.ext h3
  have hd1 : ¬ (y 2).val < 1024 := by rw [h2]; omega
  have hd2 : (y 2).val < 2048 := by rw [h2]; have := d.isLt; omega
  unfold Gblk rowOut
  rw [dif_neg hd1, dif_pos hd2, e1, e3]
  have e2 : (⟨(y 2).val - 1024, by omega⟩ : Fin 1024) = d := Fin.ext (by show (y 2).val - 1024 = d.val; omega)
  rw [e2]
  rfl

/-- The block's value in its last row. -/
theorem Gblk_top (y : S1x16x2049x16.Idx) (r : Fin 16) (n : Fin 16)
    (h1 : (y 1).val = r.val) (h2 : (y 2).val = 2048) (h3 : (y 3).val = n.val) :
    Gblk x0 x1 x2 x3 x4 x5 y = ∑ k : Fin 1024, x0 (ix3 (0 : Fin 1) r k) * x2 (ix2 n k) := by
  have e1 : (⟨(y 1).val, (y 1).isLt⟩ : Fin 16) = r := Fin.ext h1
  have e3 : (⟨(y 3).val, (y 3).isLt⟩ : Fin 16) = n := Fin.ext h3
  have hd1 : ¬ (y 2).val < 1024 := by rw [h2]; omega
  have hd2 : ¬ (y 2).val < 2048 := by rw [h2]; omega
  unfold Gblk rowOut
  rw [dif_neg hd1, dif_neg hd2, e1, e3]
  rfl

/-! ## Each piece is a restriction of the block's value -/

/-- A first-band piece: the chunk at channel offset `o`, stored at row offset `o`. -/
theorem abar_piece (o : ℕ) (ho : o + 128 ≤ 1024)
    (inbO : ∀ a, (![0, 0, o, 0] : Fin 4 → ℕ) a + S1x16x128x16.size a ≤ S1x16x2049x16.size a)
    (inb5 : ∀ a, (![0, o] : Fin 2 → ℕ) a + S1x128.size a ≤ S1x1024.size a)
    (inb4 : ∀ a, (![o, 0] : Fin 2 → ℕ) a + S128x16.size a ≤ S1024x16.size a)
    (x : (Rect.unit (s := S1x16x2049x16) ![0, 0, o, 0] S1x16x128x16.size inbO).shape.Idx) :
    k0_pay11 (F := Ideal) (stepChunk (k0_pay6 x0 x3) (View.ld x5 (Rect.unit (s := S1x1024) ![0, o] S1x128.size inb5)))
        (View.ld x4 (Rect.unit (s := S1024x16) ![o, 0] S128x16.size inb4)) x
      = Gblk x0 x1 x2 x3 x4 x5 ((Rect.unit (s := S1x16x2049x16) ![0, 0, o, 0] S1x16x128x16.size inbO).emb x) := by
  obtain ⟨u, r, j, n, rfl⟩ : ∃ (u : Fin 1) (r : Fin 16) (j : Fin 128) (n : Fin 16), x = ix4 u r j n :=
    ⟨x 0, x 1, x 2, x 3, eq_ix4 x⟩
  have hj : o + j.val < 1024 := by have := j.isLt; omega
  rw [pay11_apply, stepChunk_apply, pay6_apply]
  have i5 : (Rect.unit (s := S1x1024) ![0, o] S1x128.size inb5).idx (ix2 (0 : Fin 1) j) = ix2 (0 : Fin 1) (⟨o + j.val, hj⟩ : Fin 1024) :=
    funext fun ax => Fin.ext (by
      match ax with
      | ⟨0, _⟩ => show 0 + 1 * 0 = 0; rfl
      | ⟨1, _⟩ => show o + 1 * j.val = o + j.val; rw [Nat.one_mul])
  have i4 : (Rect.unit (s := S1024x16) ![o, 0] S128x16.size inb4).idx (ix2 j n) = ix2 (⟨o + j.val, hj⟩ : Fin 1024) n :=
    funext fun ax => Fin.ext (by
      match ax with
      | ⟨0, _⟩ => show o + 1 * j.val = o + j.val; rw [Nat.one_mul]
      | ⟨1, _⟩ => show 0 + 1 * n.val = n.val; omega)
  dsimp only [View.ld]
  rw [i5, i4]
  exact (Gblk_low x0 x1 x2 x3 x4 x5 _ r ⟨o + j.val, hj⟩ n (by show 0 + 1 * r.val = r.val; omega)
    (by show o + 1 * j.val = o + j.val; omega) (by show 0 + 1 * n.val = n.val; omega)).symm

/-- A second-band piece: the chunk at channel offset `o`, stored at row offset `1024 + o`. -/
theorem dbx_piece (o : ℕ) (ho : o + 128 ≤ 1024)
    (inbO : ∀ a, (![0, 0, 1024 + o, 0] : Fin 4 → ℕ) a + S1x16x128x16.size a ≤ S1x16x2049x16.size a)
    (inb0 : ∀ a, (![0, 0, o] : Fin 3 → ℕ) a + S1x16x128.size a ≤ S1x16x1024.size a)
    (inb5 : ∀ a, (![0, o] : Fin 2 → ℕ) a + S1x128.size a ≤ S1x1024.size a)
    (inb4 : ∀ a, (![o, 0] : Fin 2 → ℕ) a + S128x16.size a ≤ S1024x16.size a)
    (x : (Rect.unit (s := S1x16x2049x16) ![0, 0, 1024 + o, 0] S1x16x128x16.size inbO).shape.Idx) :
    k0_pay12 (F := Ideal) (k0_pay7 x0 x1) (k0_pay8 (View.ld x0 (Rect.unit (s := S1x16x1024) ![0, 0, o] S1x16x128.size inb0)))
        (stepChunk (k0_pay6 x0 x3) (View.ld x5 (Rect.unit (s := S1x1024) ![0, o] S1x128.size inb5)))
        (View.ld x4 (Rect.unit (s := S1024x16) ![o, 0] S128x16.size inb4)) x
      = Gblk x0 x1 x2 x3 x4 x5 ((Rect.unit (s := S1x16x2049x16) ![0, 0, 1024 + o, 0] S1x16x128x16.size inbO).emb x) := by
  obtain ⟨u, r, j, n, rfl⟩ : ∃ (u : Fin 1) (r : Fin 16) (j : Fin 128) (n : Fin 16), x = ix4 u r j n :=
    ⟨x 0, x 1, x 2, x 3, eq_ix4 x⟩
  have hj : o + j.val < 1024 := by have := j.isLt; omega
  rw [pay12_apply, stepChunk_apply, pay6_apply, pay7_apply, pay8_apply]
  have i5 : (Rect.unit (s := S1x1024) ![0, o] S1x128.size inb5).idx (ix2 (0 : Fin 1) j) = ix2 (0 : Fin 1) (⟨o + j.val, hj⟩ : Fin 1024) :=
    funext fun ax => Fin.ext (by
      match ax with
      | ⟨0, _⟩ => show 0 + 1 * 0 = 0; rfl
      | ⟨1, _⟩ => show o + 1 * j.val = o + j.val; rw [Nat.one_mul])
  have i4 : (Rect.unit (s := S1024x16) ![o, 0] S128x16.size inb4).idx (ix2 j n) = ix2 (⟨o + j.val, hj⟩ : Fin 1024) n :=
    funext fun ax => Fin.ext (by
      match ax with
      | ⟨0, _⟩ => show o + 1 * j.val = o + j.val; rw [Nat.one_mul]
      | ⟨1, _⟩ => show 0 + 1 * n.val = n.val; omega)
  have i0 : (Rect.unit (s := S1x16x1024) ![0, 0, o] S1x16x128.size inb0).idx (ix3 (0 : Fin 1) r j) = ix3 (0 : Fin 1) r (⟨o + j.val, hj⟩ : Fin 1024) :=
    funext fun ax => Fin.ext (by
      match ax with
      | ⟨0, _⟩ => show 0 + 1 * 0 = 0; rfl
      | ⟨1, _⟩ => show 0 + 1 * r.val = r.val; omega
      | ⟨2, _⟩ => show o + 1 * j.val = o + j.val; rw [Nat.one_mul])
  dsimp only [View.ld]
  rw [i5, i4, i0]
  exact (Gblk_mid x0 x1 x2 x3 x4 x5 _ r ⟨o + j.val, hj⟩ n (by show 0 + 1 * r.val = r.val; omega)
    (by show 1024 + o + 1 * j.val = 1024 + (o + j.val); omega) (by show 0 + 1 * n.val = n.val; omega)).symm

/-- The last row's piece. -/
theorem top_piece
    (x : (Rect.unit (s := S1x16x2049x16) ![0, 0, 2048, 0] S1x16x1x16.size inb_S1x16x2049x16_S1x16x1x16_0_0_2048_0).shape.Idx) :
    k0_pay2 (F := Ideal) (k0_pay5 x0 x2) x
      = Gblk x0 x1 x2 x3 x4 x5 ((Rect.unit (s := S1x16x2049x16) ![0, 0, 2048, 0] S1x16x1x16.size inb_S1x16x2049x16_S1x16x1x16_0_0_2048_0).emb x) := by
  obtain ⟨u, r, w, n, rfl⟩ : ∃ (u : Fin 1) (r : Fin 16) (w : Fin 1) (n : Fin 16), x = ix4 u r w n :=
    ⟨x 0, x 1, x 2, x 3, eq_ix4 x⟩
  rw [pay2_apply, pay5_apply]
  exact (Gblk_top x0 x1 x2 x3 x4 x5 _ r n (by show 0 + 1 * r.val = r.val; omega)
    (by show 2048 + 1 * w.val = 2048; omega) (by show 0 + 1 * n.val = n.val; omega)).symm

/-- Every piece of the run agrees with the block's value on its rectangle. -/
theorem pieces_value :
    ∀ p ∈ pieceList (F := Ideal) x0 x1 x2 x3 x4 x5, ∀ x : p.1.shape.Idx, p.2 x = Gblk x0 x1 x2 x3 x4 x5 (p.1.emb x) := by
  unfold pieceList
  simp only [List.forall_mem_cons, List.not_mem_nil, IsEmpty.forall_iff, implies_true, and_true]
  refine ⟨?_, ?_, ?_, ?_, ?_, ?_, ?_, ?_, ?_, ?_, ?_, ?_, ?_, ?_, ?_, ?_, ?_⟩
  · exact top_piece x0 x1 x2 x3 x4 x5
  · exact dbx_piece x0 x1 x2 x3 x4 x5 896 (by omega) _ _ _ _
  · exact abar_piece x0 x1 x2 x3 x4 x5 896 (by omega) _ _ _
  · exact dbx_piece x0 x1 x2 x3 x4 x5 768 (by omega) _ _ _ _
  · exact abar_piece x0 x1 x2 x3 x4 x5 768 (by omega) _ _ _
  · exact dbx_piece x0 x1 x2 x3 x4 x5 640 (by omega) _ _ _ _
  · exact abar_piece x0 x1 x2 x3 x4 x5 640 (by omega) _ _ _
  · exact dbx_piece x0 x1 x2 x3 x4 x5 512 (by omega) _ _ _ _
  · exact abar_piece x0 x1 x2 x3 x4 x5 512 (by omega) _ _ _
  · exact dbx_piece x0 x1 x2 x3 x4 x5 384 (by omega) _ _ _ _
  · exact abar_piece x0 x1 x2 x3 x4 x5 384 (by omega) _ _ _
  · exact dbx_piece x0 x1 x2 x3 x4 x5 256 (by omega) _ _ _ _
  · exact abar_piece x0 x1 x2 x3 x4 x5 256 (by omega) _ _ _
  · exact dbx_piece x0 x1 x2 x3 x4 x5 128 (by omega) _ _ _ _
  · exact abar_piece x0 x1 x2 x3 x4 x5 128 (by omega) _ _ _
  · exact dbx_piece x0 x1 x2 x3 x4 x5 0 (by omega) _ _ _ _
  · exact abar_piece x0 x1 x2 x3 x4 x5 0 (by omega) _ _ _

end Cert.KernelIdeal.Bridge

end
-- ==== Proof.ArrayBlocks.lean ====
/-
  How the grid's blocks sit in the arrays.

  The grid has 256 points `t ↦ (b, lt)`, `b < 2`, `lt < 128`. At point `t`:

  * the input block `[1, 16, 1024]` of `x : [2, 2048, 1024]` is the rows `16·lt … 16·lt + 15` of batch `b`: its element `y`
    is `x(b, 16·lt + y₁, y₂)`;
  * `W_b`, `W_c : [16, 1024]`, `W_Δ : [1, 1024]`, `A : [1024, 16]` and the `[1, 1024]` reshape of `δ : [1024]` are staged
    whole: the block is the array, and the reshape holds `δ(d)` at `(0, d)`;
  * the output block `[1, 16, 2049, 16]` of the result `[2, 2048, 2049, 16]` is the same rows of the same batch: its
    element `y` sits at `(b, 16·lt + y₁, y₂, y₃)`.

  Every point writes its output block back, and the 256 blocks cover the result: the index `(b, l, j, n)` is in the block
  of the point whose block index is `(b, l / 16, 0, 0)`.

  The relations between the index maps are decided once over the grid; a block's coordinate in its array is always
  block index × block size + the coordinate inside the block.
-/
import proofs.«119682_j12378095747352_2_alg».proof.Proof.Gen.KernelIdeal.Frame.Runs
import proofs.«119682_j12378095747352_2_alg».proof.Proof.Gen.KernelIdeal.Points
import proofs.«119682_j12378095747352_2_alg».proof.Proof.Gen.KernelIdeal.Launch
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Bridge

open Idealize.ShloMosaic Idealize.ShloMosaic.ValueIdx Cert.KernelIdeal Cert.KernelIdeal.Gen
open Idealize.ShloMosaic.TcCoe Idealize.SL.Sem

variable {F : FTy → Type} [FloatOps F] (m : (ℓ : Loc nD τ sig) → Buf (Elt F) ℓ)

/-! ## The index maps over the grid -/

/-- The printed index maps, decided over the 256 grid points `(b, lt)`: the input block of `x` moves with the output
    block on the two leading axes and sits at block index zero on the last; the output block sits at block index zero on
    its two trailing axes and its leading block indices stay below `2` and `128`; every other input window stages its
    whole array, at block index zero on every axis. -/
theorem idx_facts : ∀ t : Fin cfg0.N, win0_0.index t (0 : Fin 3) = win0_6.index t (0 : Fin 4) ∧ win0_0.index t (1 : Fin 3) = win0_6.index t (1 : Fin 4) ∧ win0_0.index t (2 : Fin 3) = 0 ∧ win0_6.index t (2 : Fin 4) = 0 ∧ win0_6.index t (3 : Fin 4) = 0 ∧ win0_6.index t (0 : Fin 4) ≤ 1 ∧ win0_6.index t (1 : Fin 4) ≤ 127 ∧ (∀ a, win0_1.index t a = 0) ∧ (∀ a, win0_2.index t a = 0) ∧ (∀ a, win0_3.index t a = 0) ∧ (∀ a, win0_4.index t a = 0) ∧ (∀ a, win0_5.index t a = 0) :=
  (by decide +kernel : ∀ t : Fin grid0.N, _)

/-! ## Where a block's element sits in its array -/

/-- An element `y` of the output block at point `t` sits in the result at `(b, 16·lt + y₁, y₂, y₃)`. -/
theorem blk6_emb_val (t : Fin cfg0.N) (y : S1x16x2049x16.Idx) : ((((cfg0.win 6).blk t).view.emb y) 0).val = win0_6.index t (0 : Fin 4) ∧ ((((cfg0.win 6).blk t).view.emb y) 1).val = win0_6.index t (1 : Fin 4) * 16 + (y 1).val ∧ ((((cfg0.win 6).blk t).view.emb y) 2).val = (y 2).val ∧ ((((cfg0.win 6).blk t).view.emb y) 3).val = (y 3).val := by
  obtain ⟨-, -, -, e2, e3, -⟩ := idx_facts t
  have hy0 : (y 0).val < 1 := (y 0).isLt
  refine ⟨?_, ?_, ?_, ?_⟩
  · show win0_6.index t (0 : Fin 4) * 1 + 1 * (y 0).val = win0_6.index t (0 : Fin 4); omega
  · show win0_6.index t (1 : Fin 4) * 16 + 1 * (y 1).val = win0_6.index t (1 : Fin 4) * 16 + (y 1).val; omega
  · show win0_6.index t (2 : Fin 4) * 2049 + 1 * (y 2).val = (y 2).val; omega
  · show win0_6.index t (3 : Fin 4) * 16 + 1 * (y 3).val = (y 3).val; omega

/-! ## The input windows' blocks, read off the arrays -/

/-- The block of `x` at point `t`, at `y`, is `x` at the index with the output block's two leading block indices:
    `(b, 16·lt + y₁, y₂)`. -/
theorem iblk0_apply (c : Dev nD) (t : Fin cfg0.N) (y : S1x16x1024.Idx) (i : S2x2048x1024.Idx) (h0 : (i 0).val = win0_6.index t (0 : Fin 4)) (h1 : (i 1).val = win0_6.index t (1 : Fin 4) * 16 + (y 1).val) (h2 : (i 2).val = (y 2).val) : iblk m c 0 t y = V m c main_arg0 i := by
  obtain ⟨e0, e1, e2, -⟩ := idx_facts t
  have hy0 : (y 0).val < 1 := (y 0).isLt
  show (V m c main_arg0 : S2x2048x1024.Idx → Elt F .f32) (((cfg0.win 0).blk t).view.emb y) = (V m c main_arg0 : S2x2048x1024.Idx → Elt F .f32) i
  refine congrArg (V m c main_arg0 : S2x2048x1024.Idx → Elt F .f32) ?_
  funext a; apply Fin.ext
  match a with
  | ⟨0, _⟩ => show win0_0.index t (0 : Fin 3) * 1 + 1 * (y 0).val = (i 0).val; omega
  | ⟨1, _⟩ => show win0_0.index t (1 : Fin 3) * 16 + 1 * (y 1).val = (i 1).val; omega
  | ⟨2, _⟩ => show win0_0.index t (2 : Fin 3) * 1024 + 1 * (y 2).val = (i 2).val; omega

/-- A window that stages its whole array: the block at any point is the array. -/
theorem iblk1_apply (c : Dev nD) (t : Fin cfg0.N) (y : S16x1024.Idx) : iblk m c 1 t y = V m c main_arg1 y := by
  obtain ⟨-, -, -, -, -, -, -, f1, -⟩ := idx_facts t
  have g0 := f1 (0 : Fin 2)
  have g1 := f1 (1 : Fin 2)
  show (V m c main_arg1 : S16x1024.Idx → Elt F .f32) (((cfg0.win 1).blk t).view.emb y) = (V m c main_arg1 : S16x1024.Idx → Elt F .f32) y
  refine congrArg (V m c main_arg1 : S16x1024.Idx → Elt F .f32) ?_
  funext a; apply Fin.ext
  match a with
  | ⟨0, _⟩ => show win0_1.index t (0 : Fin 2) * 16 + 1 * (y 0).val = (y 0).val; omega
  | ⟨1, _⟩ => show win0_1.index t (1 : Fin 2) * 1024 + 1 * (y 1).val = (y 1).val; omega

/-- The same for `W_c`. -/
theorem iblk2_apply (c : Dev nD) (t : Fin cfg0.N) (y : S16x1024.Idx) : iblk m c 2 t y = V m c main_arg2 y := by
  obtain ⟨-, -, -, -, -, -, -, f1, f2, f3, f4, f5⟩ := idx_facts t
  have g0 := f2 (0 : Fin 2)
  have g1 := f2 (1 : Fin 2)
  show (V m c main_arg2 : S16x1024.Idx → Elt F .f32) (((cfg0.win 2).blk t).view.emb y) = (V m c main_arg2 : S16x1024.Idx → Elt F .f32) y
  refine congrArg (V m c main_arg2 : S16x1024.Idx → Elt F .f32) ?_
  funext a; apply Fin.ext
  match a with
  | ⟨0, _⟩ => show win0_2.index t (0 : Fin 2) * 16 + 1 * (y 0).val = (y 0).val; omega
  | ⟨1, _⟩ => show win0_2.index t (1 : Fin 2) * 1024 + 1 * (y 1).val = (y 1).val; omega

/-- The same for `W_Δ`. -/
theorem iblk3_apply (c : Dev nD) (t : Fin cfg0.N) (y : S1x1024.Idx) : iblk m c 3 t y = V m c main_arg3 y := by
  obtain ⟨-, -, -, -, -, -, -, f1, f2, f3, f4, f5⟩ := idx_facts t
  have g0 := f3 (0 : Fin 2)
  have g1 := f3 (1 : Fin 2)
  show (V m c main_arg3 : S1x1024.Idx → Elt F .f32) (((cfg0.win 3).blk t).view.emb y) = (V m c main_arg3 : S1x1024.Idx → Elt F .f32) y
  refine congrArg (V m c main_arg3 : S1x1024.Idx → Elt F .f32) ?_
  funext a; apply Fin.ext
  match a with
  | ⟨0, _⟩ => show win0_3.index t (0 : Fin 2) * 1 + 1 * (y 0).val = (y 0).val; omega
  | ⟨1, _⟩ => show win0_3.index t (1 : Fin 2) * 1024 + 1 * (y 1).val = (y 1).val; omega

/-- The same for `A`. -/
theorem iblk4_apply (c : Dev nD) (t : Fin cfg0.N) (y : S1024x16.Idx) : iblk m c 4 t y = V m c main_arg4 y := by
  obtain ⟨-, -, -, -, -, -, -, f1, f2, f3, f4, f5⟩ := idx_facts t
  have g0 := f4 (0 : Fin 2)
  have g1 := f4 (1 : Fin 2)
  show (V m c main_arg4 : S1024x16.Idx → Elt F .f32) (((cfg0.win 4).blk t).view.emb y) = (V m c main_arg4 : S1024x16.Idx → Elt F .f32) y
  refine congrArg (V m c main_arg4 : S1024x16.Idx → Elt F .f32) ?_
  funext a; apply Fin.ext
  match a with
  | ⟨0, _⟩ => show win0_4.index t (0 : Fin 2) * 1024 + 1 * (y 0).val = (y 0).val; omega
  | ⟨1, _⟩ => show win0_4.index t (1 : Fin 2) * 16 + 1 * (y 1).val = (y 1).val; omega

/-- The same for the `[1, 1024]` reshape of `δ`. -/
theorem iblk5_apply (c : Dev nD) (t : Fin cfg0.N) (y : S1x1024.Idx) : iblk m c 5 t y = V m c main_v0 y := by
  obtain ⟨-, -, -, -, -, -, -, f1, f2, f3, f4, f5⟩ := idx_facts t
  have g0 := f5 (0 : Fin 2)
  have g1 := f5 (1 : Fin 2)
  show (V m c main_v0 : S1x1024.Idx → Elt F .f32) (((cfg0.win 5).blk t).view.emb y) = (V m c main_v0 : S1x1024.Idx → Elt F .f32) y
  refine congrArg (V m c main_v0 : S1x1024.Idx → Elt F .f32) ?_
  funext a; apply Fin.ext
  match a with
  | ⟨0, _⟩ => show win0_5.index t (0 : Fin 2) * 1 + 1 * (y 0).val = (y 0).val; omega
  | ⟨1, _⟩ => show win0_5.index t (1 : Fin 2) * 1024 + 1 * (y 1).val = (y 1).val; omega

/-! ## The one host operation before the region -/

/-- The `[1, 1024]` array the region finds is the `[1024]` argument `δ`, row by row: at `(u, d)` it holds `δ(d)`. -/
theorem V_main_v0_apply (c : Dev nD) (u : Fin 1) (d : Fin 1024) : V m c main_v0 (ix2 u d) = m ((c : Thread nD τ).loc main_arg5) (ix1 d) := by
  have e : (V m c main_v0 : S1x1024.Idx → Elt F .f32) = shapeCast S1x1024 (m ((c : Thread nD τ).loc main_arg5)) shapeCasts_S1024_S1x1024 := by
    dsimp only [Gen.V, Gen.hostOps0]; after_results; rfl
  show (V m c main_v0 : S1x1024.Idx → Elt F .f32) (ix2 u d) = _
  rw [e]
  exact shapeCast_a_1a_apply _ _ u d

/-! ## The output blocks cover the result -/

/-- An index of the result is in point `t`'s block iff each coordinate is in the block's range on its axis. -/
theorem mem_blk6 (t : Fin cfg0.N) (i : S2x2048x2049x16.Idx) :
    i ∈ ((cfg0.win 6).blk t).view.set ↔ ∀ a : Fin 4, win0_6.index t a * S1x16x2049x16.size a ≤ (i a).val ∧ (i a).val < win0_6.index t a * S1x16x2049x16.size a + S1x16x2049x16.size a := by
  show i ∈ ((View.whole main_v1).slice (win0_6.rect t)).set ↔ _
  rw [View.set_slice_whole, Rect.mem_set_unit]
  exact Iff.rfl

/-- Every block index `(b, lt, 0, 0)` with `b < 2`, `lt < 128` is some grid point's. -/
theorem idx_onto6 : ∀ (q0 : Fin 2) (q1 : Fin 128), ∃ t : Fin cfg0.N, win0_6.index t = ![q0.val, q1.val, 0, 0] :=
  (by decide +kernel : ∀ (q0 : Fin 2) (q1 : Fin 128), ∃ t : Fin grid0.N, win0_6.index t = ![q0.val, q1.val, 0, 0])

/-- Every index `(b, l, j, n)` of the result is in the block of the point with block index `(b, l / 16, 0, 0)`, and every
    point writes its block back. -/
theorem cover6 (i : S2x2048x2049x16.Idx) : ∃ t : Fin cfg0.N, (cfg0.win 6).flush t = true ∧ i ∈ ((cfg0.win 6).blk t).view.set := by
  have hi0 : (i 0).val < 2 := (i 0).isLt
  have hi1 : (i 1).val < 2048 := (i 1).isLt
  have hi2 : (i 2).val < 2049 := (i 2).isLt
  have hi3 : (i 3).val < 16 := (i 3).isLt
  obtain ⟨t, ht⟩ := idx_onto6 ⟨(i 0).val, hi0⟩ ⟨(i 1).val / 16, by omega⟩
  have q0 : win0_6.index t (0 : Fin 4) = (i 0).val := congrFun ht 0
  have q1 : win0_6.index t (1 : Fin 4) = (i 1).val / 16 := congrFun ht 1
  have q2 : win0_6.index t (2 : Fin 4) = 0 := congrFun ht 2
  have q3 : win0_6.index t (3 : Fin 4) = 0 := congrFun ht 3
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 16 ≤ (i 1).val ∧ (i 1).val < win0_6.index t (1 : Fin 4) * 16 + 16; omega
  | ⟨2, _⟩ => show win0_6.index t (2 : Fin 4) * 2049 ≤ (i 2).val ∧ (i 2).val < win0_6.index t (2 : Fin 4) * 2049 + 2049; omega
  | ⟨3, _⟩ => show win0_6.index t (3 : Fin 4) * 16 ≤ (i 3).val ∧ (i 3).val < win0_6.index t (3 : Fin 4) * 16 + 16; omega

end Cert.KernelIdeal.Bridge

end
-- ==== Proof.KernelValue.lean ====
/-
  The kernel's result array is the specification `G` of the launch arrays.

  A grid point `t = (b, lt)` stages rows `16·lt … 16·lt+15` of `x(b, ·, ·)` and the whole of the small arrays (the
  reshaped `δ` among them), leaves in its output block the row function of each staged row (the block's value), and
  writes the block back at rows `16·lt … 16·lt+15` of `result(b, ·, ·, ·)`. So what it writes back is the block of `G`
  of the launch arrays at that position; the 256 blocks cover the result; the result array ends equal to `G`.
-/
import proofs.«119682_j12378095747352_2_alg».proof.Proof.ValueIdealP
import proofs.«119682_j12378095747352_2_alg».proof.Proof.BlockValue
import proofs.«119682_j12378095747352_2_alg».proof.Proof.ArrayBlocks

noncomputable section

namespace Cert.KernelIdeal.Bridge

open Idealize.ShloMosaic Idealize.ShloMosaic.ValueIdx
open Cert.KernelIdeal Cert.KernelIdeal.Gen
open Idealize.ShloMosaic.TcCoe Idealize.SL.Sem
open Idealize.ShloMosaic.Pipeline (Dat)
open Cert.KernelIdeal.GenP Cert.Bridge

set_option maxRecDepth 16384

variable (m : (ℓ : Loc nD τ sig) → Buf (Elt Ideal) ℓ) (ρ : Dev nD → PrngReg)

/-- The specification at the launch contents of core `c`'s argument arrays. -/
def Gm (c : Dev nD) : S2x2048x2049x16.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a run of the body leaves in the output block is the block's value: the stores' pieces, read back over
    anything, are the one function they all restrict, wherever a piece covers — and the pieces cover the block. -/
theorem out_eq_Gblk (c : Dev nD) (i : grid0.Coords) (arg2 : Memref sig .tc .vmem S1x16x1024 .f32) (harg2 : arg2.IsWhole) (arg3 : Memref sig .tc .vmem S16x1024 .f32) (harg3 : arg3.IsWhole) (arg4 : Memref sig .tc .vmem S16x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1x16x2049x16 .f32) (harg8 : arg8.IsWhole)
    (x0 : FVec Ideal S1x16x1024 .f32) (x1 : FVec Ideal S16x1024 .f32) (x2 : FVec Ideal S16x1024 .f32) (x3 : FVec Ideal S1x1024 .f32) (x4 : FVec Ideal S1024x16 .f32) (x5 : FVec Ideal S1x1024 .f32) :
    out0_A_6 (F := Ideal) c i arg2 harg2 arg3 harg3 arg4 harg4 arg5 harg5 arg6 harg6 arg7 harg7 arg8 harg8 x0 x1 x2 x3 x4 x5 = Gblk x0 x1 x2 x3 x4 x5 := by
  have hL : ∀ p ∈ (kernelRun0_A (F := Ideal) c i arg2 harg2 arg3 harg3 arg4 harg4 arg5 harg5 arg6 harg6 arg7 harg7 arg8 harg8 x0 x1 x2 x3 x4 x5).1,
      ∀ x : p.1.shape.Idx, p.2 x = Gblk x0 x1 x2 x3 x4 x5 (p.1.emb x) := by
    rw [pieces_eq]
    exact pieces_value x0 x1 x2 x3 x4 x5
  unfold out0_A_6
  rw [View.read_writes_junk_eq_canon]
  funext y
  exact View.canon_apply_of_pieces (Val := Elt Ideal) (S := S1x16x2049x16) (e := .f32) (Gblk x0 x1 x2 x3 x4 x5) _ hL y
    (cover0_A_6 (F := Ideal) c i arg2 harg2 arg3 harg3 arg4 harg4 arg5 harg5 arg6 harg6 arg7 harg7 arg8 harg8 x0 x1 x2 x3 x4 x5 y)

/-- What point `t` writes back is block `t` of `G` of the launch arrays. -/
theorem flushed6_eq (c : Dev nD) (t : Fin cfg0.N) :
    (dats m 0 c).flushed 6 t = ((cfg0.win 6).blk t).view.read (Elt Ideal) (Gm m c) := by
  rw [Cert.KernelIdeal.ValueP.flushed6_A, out_eq_Gblk]
  funext y
  show Gblk (iblk m c 0 t) (iblk m c 1 t) (iblk m c 2 t) (iblk m c 3 t) (iblk m c 4 t) (iblk m c 5 t) y
    = Gm m c (((cfg0.win 6).blk t).view.emb y)
  obtain ⟨e0, e1, e2, e3⟩ := blk6_emb_val t y
  unfold Gm
  rw [G_eq_rowOut]
  unfold Gblk
  have hx : (fun k : Fin 1024 => iblk m c 0 t (ix3 (0 : Fin 1) (⟨(y 1).val, (y 1).isLt⟩ : Fin 16) k))
      = fun k : Fin 1024 => m ((c : Thread nD τ).loc main_arg0)
          (ix3 ((((cfg0.win 6).blk t).view.emb y) 0) ((((cfg0.win 6).blk t).view.emb y) 1) k) := by
    funext k
    rw [iblk0_apply m c t _ (ix3 ((((cfg0.win 6).blk t).view.emb y) 0) ((((cfg0.win 6).blk t).view.emb y) 1) k) e0 e1 rfl,
      V_main_arg0]
  have h1 : (iblk m c 1 t : S16x1024.Idx → EReal) = m ((c : Thread nD τ).loc main_arg1) := by
    funext z; rw [iblk1_apply, V_main_arg1]
  have h2 : (iblk m c 2 t : S16x1024.Idx → EReal) = m ((c : Thread nD τ).loc main_arg2) := by
    funext z; rw [iblk2_apply, V_main_arg2]
  have h3 : (iblk m c 3 t : S1x1024.Idx → EReal) = m ((c : Thread nD τ).loc main_arg3) := by
    funext z; rw [iblk3_apply, V_main_arg3]
  have h4 : (iblk m c 4 t : S1024x16.Idx → EReal) = m ((c : Thread nD τ).loc main_arg4) := by
    funext z; rw [iblk4_apply, V_main_arg4]
  have h5 : (fun d : Fin 1024 => iblk m c 5 t (ix2 (0 : Fin 1) d))
      = fun d : Fin 1024 => m ((c : Thread nD τ).loc main_arg5) (ix1 d) := by
    funext d; rw [iblk5_apply, V_main_v0_apply]
  have hj : (⟨(y 2).val, (y 2).isLt⟩ : Fin 2049) = (((cfg0.win 6).blk t).view.emb y) 2 := Fin.ext e2.symm
  have hn : (⟨(y 3).val, (y 3).isLt⟩ : Fin 16) = (((cfg0.win 6).blk t).view.emb y) 3 := Fin.ext e3.symm
  rw [hx, h1, h2, h3, h4, h5, hj, hn]

/-- The result array after the run. -/
theorem final6 (c : Dev nD) : (dats m 0 c).arrAt 6 cfg0.N = Gm m c :=
  (dats m 0 c).arrAt_eq_of_cover 6 (Gm m c) (fun t _ => flushed6_eq m c t) (cover6)

/-- The kernel's run: every weakly fair execution ends with the result array at `G` of the launch arrays and the
    argument arrays unchanged. -/
theorem run : θ_run defs (onTc (τ := τ) (main (F := Ideal))) ⟨m, fun _ => 0, ρ⟩ fun r => ∀ c : Dev nD,
      r.2.mem ((c : Thread nD τ).loc main_v1) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2⟩) (Cert.KernelIdeal.ValueP.run_blocks m ρ)

end Cert.KernelIdeal.Bridge

end
-- ==== Proof.RealValued.lean ====
/-
  Arrays of extended reals all of whose entries are real numbers, and the coercion of a finite real sum.
-/
import Mathlib.Data.EReal.Basic
import Mathlib.Data.EReal.Operations
import Mathlib.Algebra.BigOperators.Group.Finset.Basic

noncomputable section

namespace Cert.Bridge

open scoped BigOperators

/-- Every entry of the array is (the coercion of) a real number. -/
def IsReal {ι : Type*} (f : ι → EReal) : Prop := ∀ i, ∃ r : ℝ, f i = (r : EReal)

/-- A real-valued array is the coercion of an array of reals. -/
theorem IsReal.exists_eq {ι : Type*} {f : ι → EReal} (h : IsReal f) : ∃ g : ι → ℝ, f = fun i => (g i : EReal) := by
  choose g hg using h
  exact ⟨g, funext hg⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Bridge

end
-- ==== Proof.RefIsG.lean ====
/-
  The reference program's result is the specification `G` of the six argument arrays, when `x`, `W_b`, `W_Δ`, `A` and
  `δ` are real-valued.

  The reference's result `[2, 2048, 2049, 16]` joins three bands along its third axis. At `(b, l, j, n)`:

  * `j < 1024`: `e^{Δ · A(j,n)}`, with `Δ = softplus (s(b,l) + δ(j))` and `s(b,l) = Σ_k x(b,l,k) · W_Δ(0,k)`. The reference
    spells `-|u|` inside softplus as a negation where the specification has `0 - |u|`; at a real `u` both are the real
    softplus, and `s(b,l) + δ(j)` is real because `x`, `W_Δ` and `δ` are.
  * `1024 ≤ j < 2048`, `d = j - 1024`: `((e^{Δ·A} - 1) / (Δ·A)) · (Δ · B(b,l,n)) · x(b,l,d)`, where the specification has
    `((e^{Δ·A} - 1) / A) · B · x`: the step `Δ > 0` cancels (the discretisation law), all of `Δ`, `A`, `B`, `x` being real.
  * `j = 2048`: `C(b,l,n) = Σ_k x(b,l,k) · W_c(n,k)` on both sides.

  Each intermediate array of the reference is read at explicit coordinates first, for arbitrary arrays; the real-valued
  hypotheses enter only where softplus and the law need them.
-/
import proofs.«119682_j12378095747352_2_alg».proof.Proof.Gen.ReferenceIdeal.Read
import proofs.«119682_j12378095747352_2_alg».proof.Proof.Spec
import proofs.«119682_j12378095747352_2_alg».proof.Proof.RealValued

noncomputable section

namespace Cert.Bridge

open Idealize.ShloMosaic Idealize.ShloMosaic.ValueIdx
open Cert.ReferenceIdeal Cert.ReferenceIdeal.Read

namespace RefIsG

/-! ## The reference's intermediate arrays at explicit coordinates -/

/-- The pre-activation: the reference's `s(b,l) + δ(d)`. -/
theorem ref_pre (x0 : ShX.Idx → EReal) (x3 : ShD.Idx → EReal) (x5 : ShP.Idx → EReal)
    (b : Fin 2) (l : Fin 2048) (d : Fin 1024) :
    val_main_v6 (F := Ideal) x0 x3 x5 (ix3 b l d) = srow x0 x3 b l + x5 (ix1 d) := by
  have e1 : ∀ k : Fin 1024, lidx_main_v2 (idx_main_v4 (ix3 b l d)) k = ix3 b l k := fun k =>
    funext fun a => match a with | ⟨0, _⟩ => rfl | ⟨1, _⟩ => rfl | ⟨2, _⟩ => rfl
  have e2 : ∀ k : Fin 1024, ridx_main_v2 (idx_main_v4 (ix3 b l d)) k = ix2 (0 : Fin 1) k := fun k =>
    funext fun a => match a with | ⟨0, _⟩ => rfl | ⟨1, _⟩ => rfl
  have e3 : idx_main_v3 (idx_main_v5 (ix3 b l d)) = ix1 d :=
    funext fun a => match a with | ⟨0, _⟩ => rfl
  rw [val_main_v6_apply, val_main_v4_apply, val_main_v2_apply, val_main_v5_apply, val_main_v3_apply, e3]
  simp only [e1, e2]
  rfl

/-- The reference's softplus at a real pre-activation. -/
theorem ref_step (x0 : ShX.Idx → EReal) (x3 : ShD.Idx → EReal) (x5 : ShP.Idx → EReal) (j : ShX.Idx) (r : ℝ)
    (hu : val_main_v6 (F := Ideal) x0 x3 x5 j = (r : EReal)) :
    val_main_v7 (F := Ideal) x0 x3 x5 j = ((sp r : ℝ) : EReal) := by
  simp only [val_main_v7_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v2_apply, val_main_call0_v5_apply,
    val_main_call0_v0_apply, val_main_call0_cst_apply, hu, Ideal.ofBits_def, Ideal.ofBits_zero_f32]
  exact softplus_reference r

/-- The exponent `Δ(b,l,d) · A(d,n)`. -/
theorem ref_dA (x0 : ShX.Idx → EReal) (x3 : ShD.Idx → EReal) (x4 : ShA.Idx → EReal) (x5 : ShP.Idx → EReal)
    (b : Fin 2) (l : Fin 2048) (d : Fin 1024) (n : Fin 16) :
    val_main_v12 (F := Ideal) x0 x3 x4 x5 (ix4 b l d n)
      = val_main_v7 (F := Ideal) x0 x3 x5 (ix3 b l d) * x4 (ix2 d n) := by
  have e1 : idx_main_v8 (idx_main_v10 (ix4 b l d n)) = ix3 b l d :=
    funext fun a => match a with | ⟨0, _⟩ => rfl | ⟨1, _⟩ => rfl | ⟨2, _⟩ => rfl
  have e2 : idx_main_v9 (idx_main_v11 (ix4 b l d n)) = ix2 d n :=
    funext fun a => match a with | ⟨0, _⟩ => rfl | ⟨1, _⟩ => rfl
  rw [val_main_v12_apply, val_main_v10_apply, val_main_v8_apply, val_main_v11_apply, val_main_v9_apply, e1, e2]
  rfl

/-- The step broadcast along the last axis. -/
theorem ref_step_bc (x0 : ShX.Idx → EReal) (x3 : ShD.Idx → EReal) (x5 : ShP.Idx → EReal)
    (b : Fin 2) (l : Fin 2048) (d : Fin 1024) (n : Fin 16) :
    val_main_v19 (F := Ideal) x0 x3 x5 (ix4 b l d n) = val_main_v7 (F := Ideal) x0 x3 x5 (ix3 b l d) := by
  have e1 : idx_main_v17 (idx_main_v19 (ix4 b l d n)) = ix3 b l d :=
    funext fun a => match a with | ⟨0, _⟩ => rfl | ⟨1, _⟩ => rfl | ⟨2, _⟩ => rfl
  rw [val_main_v19_apply, val_main_v17_apply, e1]

/-- The projection `B(b,l,n)` broadcast along the third axis. -/
theorem ref_B (x0 : ShX.Idx → EReal) (x1 : ShW.Idx → EReal)
    (b : Fin 2) (l : Fin 2048) (d : Fin 1024) (n : Fin 16) :
    val_main_v20 (F := Ideal) x0 x1 (ix4 b l d n) = proj x0 x1 b l n := by
  have e1 : ∀ k : Fin 1024, lidx_main_v0 (idx_main_v18 (idx_main_v20 (ix4 b l d n))) k = ix3 b l k := fun k =>
    funext fun a => match a with | ⟨0, _⟩ => rfl | ⟨1, _⟩ => rfl | ⟨2, _⟩ => rfl
  have e2 : ∀ k : Fin 1024, ridx_main_v0 (idx_main_v18 (idx_main_v20 (ix4 b l d n))) k = ix2 n k := fun k =>
    funext fun a => match a with | ⟨0, _⟩ => rfl | ⟨1, _⟩ => rfl
  rw [val_main_v20_apply, val_main_v18_apply, val_main_v0_apply]
  simp only [e1, e2]
  rfl

/-- The input `x(b,l,d)` broadcast along the last axis. -/
theorem ref_x (x0 : ShX.Idx → EReal) (b : Fin 2) (l : Fin 2048) (d : Fin 1024) (n : Fin 16) :
    val_main_v24 (F := Ideal) x0 (ix4 b l d n) = x0 (ix3 b l d) := by
  have e1 : idx_main_v23 (idx_main_v24 (ix4 b l d n)) = ix3 b l d :=
    funext fun a => match a with | ⟨0, _⟩ => rfl | ⟨1, _⟩ => rfl | ⟨2, _⟩ => rfl
  rw [val_main_v24_apply, val_main_v23_apply, e1]

/-- The projection `C(b,l,n)` as a one-row band. -/
theorem ref_C (x0 : ShX.Idx → EReal) (x2 : ShW.Idx → EReal) (b : Fin 2) (l : Fin 2048) (n : Fin 16) :
    val_main_v26 (F := Ideal) x0 x2 (ix4 b l (0 : Fin 1) n) = proj x0 x2 b l n := by
  have e1 : ∀ k : Fin 1024, lidx_main_v1 (idx_main_v26 (ix4 b l (0 : Fin 1) n)) k = ix3 b l k := fun k =>
    funext fun a => match a with | ⟨0, _⟩ => rfl | ⟨1, _⟩ => rfl | ⟨2, _⟩ => rfl
  have e2 : ∀ k : Fin 1024, ridx_main_v1 (idx_main_v26 (ix4 b l (0 : Fin 1) n)) k = ix2 n k := fun k =>
    funext fun a => match a with | ⟨0, _⟩ => rfl | ⟨1, _⟩ => rfl
  rw [val_main_v26_apply, val_main_v1_apply]
  simp only [e1, e2]
  rfl

/-! ## The three bands of the concatenation -/

/-- Below 1024 on the joined axis the result is the first band. -/
theorem ref_cat_low (x0 : ShX.Idx → EReal) (x1 x2 : ShW.Idx → EReal) (x3 : ShD.Idx → EReal) (x4 : ShA.Idx → EReal)
    (x5 : ShP.Idx → EReal) (i : ShO.Idx) (b : Fin 2) (l : Fin 2048) (d : Fin 1024) (n : Fin 16)
    (hb : (i 0).val = b.val) (hl : (i 1).val = l.val) (hd : (i 2).val = d.val) (hn : (i 3).val = n.val) :
    val_main_v27 (F := Ideal) x0 x1 x2 x3 x4 x5 i = val_main_v13 (F := Ideal) x0 x3 x4 x5 (ix4 b l d n) := by
  unfold val_main_v27
  exact concatenate_apply_piece (t := S2x2048x2049x16) 2 _ _ i 0 (by show (0 : Nat) < 3; decide)
    S2x2048x1024x16 (val_main_v13 (F := Ideal) x0 x3 x4 x5) rfl rfl 0 rfl (ix4 b l d n)
    (fun c hc => match c with
      | ⟨0, _⟩ => hb.symm
      | ⟨1, _⟩ => hl.symm
      | ⟨2, _⟩ => absurd rfl hc
      | ⟨3, _⟩ => hn.symm)
    ((Nat.zero_add _).trans hd.symm)

/-- From 1024 to 2047 on the joined axis the result is the second band, read 1024 lower. -/
theorem ref_cat_mid (x0 : ShX.Idx → EReal) (x1 x2 : ShW.Idx → EReal) (x3 : ShD.Idx → EReal) (x4 : ShA.Idx → EReal)
    (x5 : ShP.Idx → EReal) (i : ShO.Idx) (b : Fin 2) (l : Fin 2048) (d : Fin 1024) (n : Fin 16)
    (hb : (i 0).val = b.val) (hl : (i 1).val = l.val) (hd : (i 2).val = 1024 + d.val) (hn : (i 3).val = n.val) :
    val_main_v27 (F := Ideal) x0 x1 x2 x3 x4 x5 i = val_main_v25 (F := Ideal) x0 x1 x3 x4 x5 (ix4 b l d n) := by
  unfold val_main_v27
  exact concatenate_apply_piece (t := S2x2048x2049x16) 2 _ _ i 1 (by show (1 : Nat) < 3; decide)
    S2x2048x1024x16 (val_main_v25 (F := Ideal) x0 x1 x3 x4 x5) rfl rfl 1024 rfl (ix4 b l d n)
    (fun c hc => match c with
      | ⟨0, _⟩ => hb.symm
      | ⟨1, _⟩ => hl.symm
      | ⟨2, _⟩ => absurd rfl hc
      | ⟨3, _⟩ => hn.symm)
    hd.symm

/-- At 2048 on the joined axis the result is the one-row third band. -/
theorem ref_cat_top (x0 : ShX.Idx → EReal) (x1 x2 : ShW.Idx → EReal) (x3 : ShD.Idx → EReal) (x4 : ShA.Idx → EReal)
    (x5 : ShP.Idx → EReal) (i : ShO.Idx) (b : Fin 2) (l : Fin 2048) (n : Fin 16)
    (hb : (i 0).val = b.val) (hl : (i 1).val = l.val) (hd : (i 2).val = 2048) (hn : (i 3).val = n.val) :
    val_main_v27 (F := Ideal) x0 x1 x2 x3 x4 x5 i = val_main_v26 (F := Ideal) x0 x2 (ix4 b l (0 : Fin 1) n) := by
  unfold val_main_v27
  exact concatenate_apply_piece (t := S2x2048x2049x16) 2 _ _ i 2 (by show (2 : Nat) < 3; decide)
    S2x2048x1x16 (val_main_v26 (F := Ideal) x0 x2) rfl rfl 2048 rfl (ix4 b l (0 : Fin 1) n)
    (fun c hc => match c with
      | ⟨0, _⟩ => hb.symm
      | ⟨1, _⟩ => hl.symm
      | ⟨2, _⟩ => absurd rfl hc
      | ⟨3, _⟩ => hn.symm)
    hd.symm

/-! ## Real-valued arrays: the sums and the step are real -/

/-- The row sum `s(b,l)` of real arrays is the coercion of the real sum. -/
theorem srow_coe (g0 : ShX.Idx → ℝ) (g3 : ShD.Idx → ℝ) (b : Fin 2) (l : Fin 2048) :
    srow (fun i => (g0 i : EReal)) (fun i => (g3 i : EReal)) b l
      = ((∑ k : Fin 1024, g0 (ix3 b l k) * g3 (ix2 (0 : Fin 1) k) : ℝ) : EReal) := by
  unfold srow
  rw [coe_sum]
  exact Finset.sum_congr rfl fun k _ => (EReal.coe_mul _ _).symm

/-- A projection of real arrays is the coercion of the real sum. -/
theorem proj_coe (g0 : ShX.Idx → ℝ) (gw : ShW.Idx → ℝ) (b : Fin 2) (l : Fin 2048) (n : Fin 16) :
    proj (fun i => (g0 i : EReal)) (fun i => (gw i : EReal)) b l n
      = ((∑ k : Fin 1024, g0 (ix3 b l k) * gw (ix2 n k) : ℝ) : EReal) := by
  unfold proj
  rw [coe_sum]
  exact Finset.sum_congr rfl fun k _ => (EReal.coe_mul _ _).symm

/-- The real pre-activation `s(b,l) + δ(d)`. -/
def preR (g0 : ShX.Idx → ℝ) (g3 : ShD.Idx → ℝ) (g5 : ShP.Idx → ℝ) (b : Fin 2) (l : Fin 2048) (d : Fin 1024) : ℝ :=
  (∑ k : Fin 1024, g0 (ix3 b l k) * g3 (ix2 (0 : Fin 1) k)) + g5 (ix1 d)

theorem pre_coe (g0 : ShX.Idx → ℝ) (g3 : ShD.Idx → ℝ) (g5 : ShP.Idx → ℝ) (b : Fin 2) (l : Fin 2048) (d : Fin 1024) :
    srow (fun i => (g0 i : EReal)) (fun i => (g3 i : EReal)) b l + ((g5 (ix1 d) : ℝ) : EReal)
      = ((preR g0 g3 g5 b l d : ℝ) : EReal) := by
  rw [srow_coe, ← EReal.coe_add]; rfl

/-- The specification's step at real arrays is the real softplus. -/
theorem step_coe (g0 : ShX.Idx → ℝ) (g3 : ShD.Idx → ℝ) (g5 : ShP.Idx → ℝ) (b : Fin 2) (l : Fin 2048) (d : Fin 1024) :
    step (fun i => (g0 i : EReal)) (fun i => (g3 i : EReal)) (fun i => (g5 i : EReal)) b l d
      = ((sp (preR g0 g3 g5 b l d) : ℝ) : EReal) := by
  unfold step
  rw [pre_coe]
  exact softplus_kernel _

/-- The reference's step at real arrays is the same real softplus. -/
theorem ref_step_coe (g0 : ShX.Idx → ℝ) (g3 : ShD.Idx → ℝ) (g5 : ShP.Idx → ℝ) (b : Fin 2) (l : Fin 2048) (d : Fin 1024) :
    val_main_v7 (F := Ideal) (fun i => (g0 i : EReal)) (fun i => (g3 i : EReal)) (fun i => (g5 i : EReal)) (ix3 b l d)
      = ((sp (preR g0 g3 g5 b l d) : ℝ) : EReal) :=
  ref_step _ _ _ _ _ ((ref_pre _ _ _ b l d).trans (pre_coe g0 g3 g5 b l d))

/-! ## The three bands against the specification -/

/-- First band: `e^{Δ·A}` on both sides. -/
theorem band_abar (g0 : ShX.Idx → ℝ) (g3 : ShD.Idx → ℝ) (x4 : ShA.Idx → EReal) (g5 : ShP.Idx → ℝ)
    (b : Fin 2) (l : Fin 2048) (d : Fin 1024) (n : Fin 16) :
    val_main_v13 (F := Ideal) (fun i => (g0 i : EReal)) (fun i => (g3 i : EReal)) x4 (fun i => (g5 i : EReal)) (ix4 b l d n)
      = abar (fun i => (g0 i : EReal)) (fun i => (g3 i : EReal)) x4 (fun i => (g5 i : EReal)) b l d n := by
  rw [val_main_v13_apply, ref_dA, ref_step_coe]
  unfold abar
  rw [step_coe]
  rfl

/-- Second band: the step cancels between the quotient's divisor and the input term. -/
theorem band_dbx (g0 : ShX.Idx → ℝ) (g1 : ShW.Idx → ℝ) (g3 : ShD.Idx → ℝ) (g4 : ShA.Idx → ℝ) (g5 : ShP.Idx → ℝ)
    (b : Fin 2) (l : Fin 2048) (d : Fin 1024) (n : Fin 16) :
    val_main_v25 (F := Ideal) (fun i => (g0 i : EReal)) (fun i => (g1 i : EReal)) (fun i => (g3 i : EReal))
        (fun i => (g4 i : EReal)) (fun i => (g5 i : EReal)) (ix4 b l d n)
      = dbx (fun i => (g0 i : EReal)) (fun i => (g1 i : EReal)) (fun i => (g3 i : EReal))
        (fun i => (g4 i : EReal)) (fun i => (g5 i : EReal)) b l d n := by
  have hv14 : val_main_v14 (F := Ideal) (ix4 b l d n) = 1 := by
    rw [val_main_v14_apply, val_main_cst_apply, Ideal.ofBits_def, Ideal.ofBits_one_f32]
  rw [val_main_v25_apply, val_main_v22_apply, val_main_v16_apply, val_main_v15_apply, val_main_v13_apply,
    val_main_v21_apply, ref_dA, ref_step_bc, ref_B, ref_x, ref_step_coe, proj_coe, hv14]
  unfold dbx abar
  rw [step_coe, proj_coe, Ideal.ofBits_one_f32]
  exact zoh_law _ _ _ _ (sp_pos _)

end RefIsG

open RefIsG

/-! ## The reference is the specification -/

theorem reference_eq_G (x0 : ShX.Idx → EReal) (x1 x2 : ShW.Idx → EReal) (x3 : ShD.Idx → EReal) (x4 : ShA.Idx → EReal) (x5 : ShP.Idx → EReal)
    (h0 : IsReal x0) (h1 : IsReal x1) (h3 : IsReal x3) (h4 : IsReal x4) (h5 : IsReal x5) :
    Cert.ReferenceIdeal.Read.val_main_v27 (F := Ideal) x0 x1 x2 x3 x4 x5 = G x0 x1 x2 x3 x4 x5 := by
  obtain ⟨g0, rfl⟩ := h0.exists_eq
  obtain ⟨g1, rfl⟩ := h1.exists_eq
  obtain ⟨g3, rfl⟩ := h3.exists_eq
  obtain ⟨g4, rfl⟩ := h4.exists_eq
  obtain ⟨g5, rfl⟩ := h5.exists_eq
  funext i
  have hlt : (i 2).val < 2049 := (i 2).isLt
  unfold G
  by_cases c1 : (i 2).val < 1024
  · rw [dif_pos c1, ref_cat_low _ _ _ _ _ _ i (i 0) (i 1) ⟨(i 2).val, c1⟩ (i 3) rfl rfl rfl rfl]
    exact band_abar g0 g3 _ g5 _ _ _ _
  · rw [dif_neg c1]
    by_cases c2 : (i 2).val < 2048
    · rw [dif_pos c2, ref_cat_mid _ _ _ _ _ _ i (i 0) (i 1) ⟨(i 2).val - 1024, by omega⟩ (i 3) rfl rfl
        (show (i 2).val = 1024 + ((i 2).val - 1024) by omega) rfl]
      exact band_dbx g0 g1 g3 g4 g5 _ _ _ _
    · rw [dif_neg c2, ref_cat_top _ _ _ _ _ _ i (i 0) (i 1) (i 3) rfl rfl (by omega) rfl]
      exact ref_C _ _ _ _ _

end Cert.Bridge

end
-- ==== Proof.Finite.lean ====
/-
  The precondition "every float input is finite", read back at the extended reals.

  The precondition is printed as a pure function: for each of the six argument arrays it forms
  `|a| < +∞` entry by entry, folds the resulting bits of each array by `and` into one bit (the array's
  `all`), and joins the six bits by `and`. On the extended reals `|x|` is `max x (-x)` and the pattern
  `0x7F800000` denotes `⊤`, so the function returning 1 says that every entry `x` of every array has
  `max x (-x) < ⊤`. Neither `⊥` nor `⊤` satisfies that (their `max x (-x)` is `⊤`), so every entry is a real.
-/
import proofs.«119682_j12378095747352_2_alg».proof.Pre_finite_inputs
import proofs.«119682_j12378095747352_2_alg».proof.Proof.RealValued
import Idealize.ShloMosaic.PureOps.Ideal
import Idealize.ShloMosaic.Lib.ValueIdx
import Idealize.ShloMosaic.Lib.ReduceAll

noncomputable section

namespace Cert.Bridge

open Idealize.ShloMosaic Cert.Pre_finite_inputs

/-- The rank-0 shape has exactly one index: there is no axis to give a coordinate on. -/
theorem finite_scalar_idx_subsingleton : Subsingleton S_.Idx := ⟨fun a b => funext fun d => d.elim0⟩

attribute [local instance] finite_scalar_idx_subsingleton

/-- An extended real whose absolute value `max x (-x)` is below `⊤` is a real number: at `⊥` the maximum is
    `-⊥ = ⊤`, at `⊤` it is `⊤` itself. -/
theorem exists_real_of_abs_lt_top (x : EReal) (h : max x (-x) < ⊤) : ∃ r : ℝ, x = (r : EReal) := by
  induction x using EReal.rec with
  | bot => simp at h
  | coe r => exact ⟨r, rfl⟩
  | top => simp at h

/-- The f32 pattern of `+∞` (all-ones exponent, zero fraction, sign clear) denotes `⊤`. -/
theorem ofBits_inf_f32 : Ideal.ofBits .f32 0x7F800000#32 = (⊤ : EReal) := by
  simp [Ideal.ofBits, Ideal.ieee]

/-- An array every entry of which passes the test `|x| < +∞` — the absolute value compared, strictly below,
    against the broadcast scalar constant `+∞` — is real-valued. At an index the comparison is
    `decide (max (a i) (-a i) < ⊤)` as a bit, and that bit being 1 is the inequality. -/
theorem isReal_of_abs_lt_inf {s : Shape} (a : FVec Ideal s .f32)
    (hb : S_.BroadcastsInDim s (![] : Fin 0 → Fin s.rank))
    (h : ∀ i, cmpf .olt (Host.absf a) (broadcastInDim s ![] hb (constant S_ .f32 0x7F800000#32)) i = 1#1) :
    IsReal a := by
  intro i
  have hi : Ideal.cmp .olt (max (a i) (-(a i))) (Ideal.ofBits .f32 0x7F800000#32) = 1#1 := h i
  rw [ofBits_inf_f32] at hi
  refine exists_real_of_abs_lt_top (a i) ?_
  by_contra hn
  simp [Ideal.cmp, hn] at hi

/-- If the finiteness precondition evaluates to 1 on six arrays of extended reals, each of the six is
    real-valued. The result bit is the `and` of six bits, so each of them is 1; each is the `and`-fold of one
    array's entrywise tests into a single index, so every test of that array is 1; and a passed test makes
    the entry a real. -/
theorem isReal_of_finite_inputs [Cert.Pre_finite_inputs.Facts]
    (a0 : FVec Ideal S2x2048x1024 .f32) (a1 a2 : FVec Ideal S16x1024 .f32) (a3 : FVec Ideal S1x1024 .f32)
    (a4 : FVec Ideal S1024x16 .f32) (a5 : FVec Ideal S1024 .f32)
    (h : Cert.Pre_finite_inputs.fn (F := Ideal) a0 a1 a2 a3 a4 a5 = fun _ => 1#1) :
    IsReal a0 ∧ IsReal a1 ∧ IsReal a2 ∧ IsReal a3 ∧ IsReal a4 ∧ IsReal a5 := by
  have h0 := congrFun h ValueIdx.ix0
  dsimp only [Cert.Pre_finite_inputs.fn, Cert.Pre_finite_inputs.fn_part1] at h0
  -- the six per-array bits, peeled off the chain of `and`s from the outside in
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_abs_lt_inf a0 _ (Host.reduce_andi_all _ _ _ _ _ e0),
    isReal_of_abs_lt_inf a1 _ (Host.reduce_andi_all _ _ _ _ _ e1),
    isReal_of_abs_lt_inf a2 _ (Host.reduce_andi_all _ _ _ _ _ e2),
    isReal_of_abs_lt_inf a3 _ (Host.reduce_andi_all _ _ _ _ _ e3),
    isReal_of_abs_lt_inf a4 _ (Host.reduce_andi_all _ _ _ _ _ e4),
    isReal_of_abs_lt_inf a5 _ (Host.reduce_andi_all _ _ _ _ _ e5)⟩

end Cert.Bridge

end
-- ==== Proof.lean ====
/-
  The certificate's claims.

  The kernel (one grid point per 16 rows of `x`) and the reference compute, at the ideal values, the same array
  `[2, 2048, 2049, 16]` of the six arguments: the specification `G` (Proof/Spec.lean). The kernel's side is the value
  of its run (Proof/KernelValue.lean: each grid point leaves the row function of its 16 rows, the blocks cover the
  result); the reference's side reads its host operations one at a time (Proof/RefIsG.lean) and needs the arguments to be
  real numbers — softplus of a real is a positive real, and the step then cancels between `(e^{ΔA} - 1) / (ΔA)` and
  `Δ · B` (Proof/ScalarLaw.lean) — which the precondition gives (Proof/Finite.lean). The three frames are the
  programs' runs with the results dropped; the idealization rewrote no operation, so `preserves` is `True`.
-/
import proofs.«119682_j12378095747352_2_alg».proof.Defs
import proofs.«119682_j12378095747352_2_alg».proof.Proof.Gen.Kernel
import proofs.«119682_j12378095747352_2_alg».proof.Proof.Gen.KernelIdeal
import proofs.«119682_j12378095747352_2_alg».proof.Proof.Gen.ReferenceIdeal
import proofs.«119682_j12378095747352_2_alg».proof.Proof.Gen.Pre_finite_inputs
import proofs.«119682_j12378095747352_2_alg».proof.Proof.Gen.ReferenceIdeal.Run
import proofs.«119682_j12378095747352_2_alg».proof.Proof.Gen.ReferenceIdeal.Read
import proofs.«119682_j12378095747352_2_alg».proof.Proof.FrameBitsP
import proofs.«119682_j12378095747352_2_alg».proof.Proof.KernelValue
import proofs.«119682_j12378095747352_2_alg».proof.Proof.RefIsG
import proofs.«119682_j12378095747352_2_alg».proof.Proof.Finite
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The kernel as printed runs and leaves its arguments unchanged. -/
theorem frame_kernel : Cert.frame_Kernel := fun m ρ _ => Cert.Kernel.GenP.frame m ρ

/-- The idealized kernel runs and leaves its arguments unchanged. -/
theorem frame_kernelIdeal : Cert.frame_KernelIdeal := fun m ρ _ => Cert.KernelIdeal.GenP.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specification `G` of the arguments: the kernel by its run's value, the reference by its
    operations read at an index, the arguments real by the precondition. -/
theorem algebraic : Cert.algebraic_KernelIdeal_ReferenceIdeal := by
  intro m ρ m' ρ' hpre hagree
  refine ⟨fun c => Cert.KernelIdeal.Bridge.Gm m c, Cert.KernelIdeal.Bridge.run m ρ, ?_⟩
  refine (θ_run Cert.ReferenceIdeal.defs _ _).mono (fun r h c => ⟨?_, (h c).2⟩)
    (Cert.ReferenceIdeal.Value.run (F := Ideal) m' ρ')
  obtain ⟨a0, a1, a2, a3, a4, a5⟩ := hagree c
  obtain ⟨f0, f1, -, f3, f4, f5⟩ := Cert.Bridge.isReal_of_finite_inputs _ _ _ _ _ _ (hpre c)
  rw [(h c).1, Cert.ReferenceIdeal.Read.val_main_v27_eq, a0, a1, a2, a3, a4, a5]
  exact Cert.Bridge.reference_eq_G _ _ _ _ _ _ f0 f1 f3 f4 f5

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
